-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S2x524288 : Shape := ⟨2, ![2, 524288]⟩
abbrev S262144 : Shape := ⟨1, ![262144]⟩
abbrev S8192x128 : Shape := ⟨2, ![8192, 128]⟩
abbrev S128 : Shape := ⟨1, ![128]⟩
abbrev S128x64 : Shape := ⟨2, ![128, 64]⟩
abbrev S64 : Shape := ⟨1, ![64]⟩
abbrev S128x86 : Shape := ⟨2, ![128, 86]⟩
abbrev S86 : Shape := ⟨1, ![86]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x86 : S_.BroadcastsInDim S128x86 (![] : Fin 0 → Fin S128x86.rank)
  reducesTo_S128x86_S_d0_1 : S128x86.ReducesTo [0, 1] S_
  bcast_S_S86 : S_.BroadcastsInDim S86 (![] : Fin 0 → Fin S86.rank)
  reducesTo_S86_S_d0 : S86.ReducesTo [0] S_

variable [Facts]

def fn_part1 {F : FTy → Type} [FloatOps F] (main_arg7 : FVec F S64 .f32) (main_arg8 : FVec F S128x86 .f32) (main_arg9 : FVec F S86 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x86 .f32 := Host.absf main_arg8
  let main_cst_8 : FVec F S_ .f32 := constant S_ .f32 0x7F800000#32
  let main_v25 : FVec F S128x86 .f32 := broadcastInDim S128x86 ![] bcast_S_S128x86 main_cst_8
  let main_v26 : IVec S128x86 1 := cmpf .olt main_v24 main_v25
  let main_c_9 : IVec S_ 1 := constantI S_ 1 1#1
  let main_v27 : IVec S_ 1 := (fun x v => Host.reduce IntOp.andi x v reducesTo_S128x86_S_d0_1 h_S_) main_v26 main_c_9
  let main_v28 : IVec S_ 1 := andi main_v23 main_v27
  let main_v29 : FVec F S86 .f32 := Host.absf main_arg9
  let main_cst_10 : FVec F S_ .f32 := constant S_ .f32 0x7F800000#32
  let main_v30 : FVec F S86 .f32 := broadcastInDim S86 ![] bcast_S_S86 main_cst_10
  let main_v31 : IVec S86 1 := cmpf .olt main_v29 main_v30
  let main_c_11 : IVec S_ 1 := constantI S_ 1 1#1
  let main_v32 : IVec S_ 1 := (fun x v => Host.reduce IntOp.andi x v reducesTo_S86_S_d0 h_S_) main_v31 main_c_11
  let main_v33 : IVec S_ 1 := andi main_v28 main_v32
  main_v33

def fn {F : FTy → Type} [FloatOps F] (main_arg0 : FVec F S8192x8192 .f32) (main_arg1 : IVec S2x524288 32) (main_arg2 : IVec S262144 32) (main_arg3 : IVec S262144 32) (main_arg4 : FVec F S8192x128 .f32) (main_arg5 : FVec F S128 .f32) (main_arg6 : FVec F S128x64 .f32) (main_arg7 : FVec F S64 .f32) (main_arg8 : FVec F S128x86 .f32) (main_arg9 : FVec F S86 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg4
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg7 main_arg8 main_arg9 main_v13 main_v16
-- ==== Kernel.lean ====
abbrev S8192x8192 : Shape := ⟨2, ![8192, 8192]⟩
abbrev S2x524288 : Shape := ⟨2, ![2, 524288]⟩
abbrev S262144 : Shape := ⟨1, ![262144]⟩
abbrev S8192x128 : Shape := ⟨2, ![8192, 128]⟩
abbrev S128 : Shape := ⟨1, ![128]⟩
abbrev S128x64 : Shape := ⟨2, ![128, 64]⟩
abbrev S64 : Shape := ⟨1, ![64]⟩
abbrev S128x86 : Shape := ⟨2, ![128, 86]⟩
abbrev S86 : Shape := ⟨1, ![86]⟩
abbrev S1x524288 : Shape := ⟨2, ![1, 524288]⟩
abbrev S524288 : Shape := ⟨1, ![524288]⟩
abbrev S8192 : Shape := ⟨1, ![8192]⟩
abbrev S532480 : Shape := ⟨1, ![532480]⟩
abbrev S_ : Shape := ⟨0, ![]⟩
abbrev S532480x1 : Shape := ⟨2, ![532480, 1]⟩
abbrev S256x8192 : Shape := ⟨2, ![256, 8192]⟩
abbrev S256x128 : Shape := ⟨2, ![256, 128]⟩
abbrev S532480x128 : Shape := ⟨2, ![532480, 128]⟩
abbrev S1x128 : Shape := ⟨2, ![1, 128]⟩
abbrev S8192x64 : Shape := ⟨2, ![8192, 64]⟩
abbrev S532480x64 : Shape := ⟨2, ![532480, 64]⟩
abbrev S1x64 : Shape := ⟨2, ![1, 64]⟩
abbrev S64x86 : Shape := ⟨2, ![64, 86]⟩
abbrev S8192x86 : Shape := ⟨2, ![8192, 86]⟩
abbrev S262144x1 : Shape := ⟨2, ![262144, 1]⟩
abbrev S262144x86 : Shape := ⟨2, ![262144, 86]⟩
abbrev S1x86 : Shape := ⟨2, ![1, 86]⟩

abbrev nBuf : Space → Nat
  | .hbm => 131
  | .vmem => 5
  | .smem => 0
  | _ => 0

abbrev hbmTy0_0 (i : Nat) : BufTy := match i % 128 with
  | 0 => ⟨S8192x8192, .f32⟩
  | 1 => ⟨S2x524288, .i32⟩
  | 2 => ⟨S262144, .i32⟩
  | 3 => ⟨S262144, .i32⟩
  | 4 => ⟨S8192x128, .f32⟩
  | 5 => ⟨S128, .f32⟩
  | 6 => ⟨S128x64, .f32⟩
  | 7 => ⟨S64, .f32⟩
  | 8 => ⟨S128x86, .f32⟩
  | 9 => ⟨S86, .f32⟩
  | 10 => ⟨S1x524288, .i32⟩
  | 11 => ⟨S524288, .i32⟩
  | 12 => ⟨S1x524288, .i32⟩
  | 13 => ⟨S524288, .i32⟩
  | 14 => ⟨S8192, .i32⟩
  | 15 => ⟨S532480, .i32⟩
  | 16 => ⟨S532480, .i32⟩
  | 17 => ⟨S_, .f32⟩
  | 18 => ⟨S532480, .f32⟩
  | 19 => ⟨S_, .f32⟩
  | 20 => ⟨S8192, .f32⟩
  | 21 => ⟨S532480x1, .i32⟩
  | 22 => ⟨S8192, .f32⟩
  | 23 => ⟨S_, .f32⟩
  | 24 => ⟨S8192, .f32⟩
  | 25 => ⟨S8192, .i1⟩
  | 26 => ⟨S8192, .f32⟩
  | 27 => ⟨S_, .f32⟩
  | 28 => ⟨S_, .f32⟩
  | 29 => ⟨S8192, .f32⟩
  | 30 => ⟨S8192, .f32⟩
  | 31 => ⟨S_, .i32⟩
  | 32 => ⟨S532480, .i32⟩
  | 33 => ⟨S532480, .i1⟩
  | 34 => ⟨S_, .i32⟩
  | 35 => ⟨S532480, .i32⟩
  | 36 => ⟨S532480, .i32⟩
  | 37 => ⟨S532480, .i32⟩
  | 38 => ⟨S532480x1, .i32⟩
  | 39 => ⟨S532480, .f32⟩
  | 40 => ⟨S_, .i32⟩
  | 41 => ⟨S532480, .i32⟩
  | 42 => ⟨S532480, .i1⟩
  | 43 => ⟨S_, .i32⟩
  | 44 => ⟨S532480, .i32⟩
  | 45 => ⟨S532480, .i32⟩
  | 46 => ⟨S532480, .i32⟩
  | 47 => ⟨S532480x1, .i32⟩
  | 48 => ⟨S532480, .f32⟩
  | 49 => ⟨S532480, .f32⟩
  | 50 => ⟨S8192x128, .bf16⟩
  | 51 => ⟨S8192x128, .f32⟩
  | 52 => ⟨S_, .i32⟩
  | 53 => ⟨S532480, .i32⟩
  | 54 => ⟨S532480, .i1⟩
  | 55 => ⟨S_, .i32⟩
  | 56 => ⟨S532480, .i32⟩
  | 57 => ⟨S532480, .i32⟩
  | 58 => ⟨S532480, .i32⟩
  | 59 => ⟨S532480x1, .i32⟩
  | 60 => ⟨S532480x128, .f32⟩
  | 61 => ⟨S532480x1, .f32⟩
  | 62 => ⟨S532480x128, .f32⟩
  | 63 => ⟨S532480x128, .f32⟩
  | 64 => ⟨S_, .f32⟩
  | 65 => ⟨S8192x128, .f32⟩
  | 66 => ⟨S532480x1, .i32⟩
  | 67 => ⟨S8192x128, .f32⟩
  | 68 => ⟨S1x128, .f32⟩
  | 69 => ⟨S8192x128, .f32⟩
  | 70 => ⟨S8192x128, .f32⟩
  | 71 => ⟨S_, .f32⟩
  | 72 => ⟨S8192x128, .f32⟩
  | 73 => ⟨S8192x128, .f32⟩
  | 74 => ⟨S8192x64, .f32⟩
  | 75 => ⟨S_, .i32⟩
  | 76 => ⟨S532480, .i32⟩
  | 77 => ⟨S532480, .i1⟩
  | 78 => ⟨S_, .i32⟩
  | 79 => ⟨S532480, .i32⟩
  | 80 => ⟨S532480, .i32⟩
  | 81 => ⟨S532480, .i32⟩
  | 82 => ⟨S532480x1, .i32⟩
  | 83 => ⟨S532480x64, .f32⟩
  | 84 => ⟨S532480x1, .f32⟩
  | 85 => ⟨S532480x64, .f32⟩
  | 86 => ⟨S532480x64, .f32⟩
  | 87 => ⟨S_, .f32⟩
  | 88 => ⟨S8192x64, .f32⟩
  | 89 => ⟨S532480x1, .i32⟩
  | 90 => ⟨S8192x64, .f32⟩
  | 91 => ⟨S1x64, .f32⟩
  | 92 => ⟨S8192x64, .f32⟩
  | 93 => ⟨S8192x64, .f32⟩
  | 94 => ⟨S_, .f32⟩
  | 95 => ⟨S8192x64, .f32⟩
  | 96 => ⟨S8192x64, .f32⟩
  | 97 => ⟨S64x86, .f32⟩
  | 98 => ⟨S64x86, .f32⟩
  | 99 => ⟨S8192x86, .f32⟩
  | 100 => ⟨S8192x86, .f32⟩
  | 101 => ⟨S_, .i32⟩
  | 102 => ⟨S262144, .i32⟩
  | 103 => ⟨S262144, .i1⟩
  | 104 => ⟨S_, .i32⟩
  | 105 => ⟨S262144, .i32⟩
  | 106 => ⟨S262144, .i32⟩
  | 107 => ⟨S262144, .i32⟩
  | 108 => ⟨S262144x1, .i32⟩
  | 109 => ⟨S262144x86, .f32⟩
  | 110 => ⟨S_, .i32⟩
  | 111 => ⟨S262144, .i32⟩
  | 112 => ⟨S262144, .i1⟩
  | 113 => ⟨S_, .i32⟩
  | 114 => ⟨S262144, .i32⟩
  | 115 => ⟨S262144, .i32⟩
  | 116 => ⟨S262144, .i32⟩
  | 117 => ⟨S262144x1, .i32⟩
  | 118 => ⟨S262144x86, .f32⟩
  | 119 => ⟨S262144x86, .f32⟩
  | 120 => ⟨S1x86, .f32⟩
  | 121 => ⟨S262144x86, .f32⟩
  | 122 => ⟨S262144x86, .f32⟩
  | 123 => ⟨S262144x86, .f32⟩
  | 124 => ⟨S262144x86, .f32⟩
  | 125 => ⟨S_, .f32⟩
  | 126 => ⟨S262144x86, .f32⟩
  | 127 => ⟨S262144x86, .f32⟩
  | _ => ⟨S8192x8192, .f32⟩

abbrev hbmTy0_1 (i : Nat) : BufTy := match i % 128 with
  | 0 => ⟨S_, .f32⟩
  | 1 => ⟨S262144x86, .f32⟩
  | 2 => ⟨S262144x86, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | .local _ .vmem, ⟨0, _⟩ => ⟨S256x8192, .f32⟩
  | .local _ .vmem, ⟨1, _⟩ => ⟨S256x8192, .f32⟩
  | .local _ .vmem, ⟨2, _⟩ => ⟨S8192x128, .bf16⟩
  | .local _ .vmem, ⟨3, _⟩ => ⟨S256x128, .f32⟩
  | .local _ .vmem, ⟨4, _⟩ => ⟨S256x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call1_cst : Ref sig .tc := ⟨.hbm, 71, rfl⟩
abbrev main_call1_v0 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call2_cst : Ref sig .tc := ⟨.hbm, 94, rfl⟩
abbrev main_call2_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_12 : Ref sig .tc := ⟨.hbm, 101, rfl⟩
abbrev main_v71 : Ref sig .tc := ⟨.hbm, 102, rfl⟩
abbrev main_v72 : Ref sig .tc := ⟨.hbm, 103, rfl⟩
abbrev main_c_13 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_14 : Ref sig .tc := ⟨.hbm, 110, rfl⟩
abbrev main_v78 : Ref sig .tc := ⟨.hbm, 111, rfl⟩
abbrev main_v79 : Ref sig .tc := ⟨.hbm, 112, rfl⟩
abbrev main_c_15 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_16 : Ref sig .tc := ⟨.hbm, 125, rfl⟩
abbrev main_v91 : Ref sig .tc := ⟨.hbm, 126, rfl⟩
abbrev main_v92 : Ref sig .tc := ⟨.hbm, 127, rfl⟩
abbrev main_cst_17 : Ref sig .tc := ⟨.hbm, 128, rfl⟩
abbrev main_v93 : Ref sig .tc := ⟨.hbm, 129, rfl⟩
abbrev main_v94 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S8192_S532480_d0 : Shape.Concatenates [S524288, S8192] S532480 0
  bcast_S_S532480 : S_.BroadcastsInDim S532480 (![] : Fin 0 → Fin S532480.rank)
  bcast_S_S8192 : S_.BroadcastsInDim S8192 (![] : Fin 0 → Fin S8192.rank)
  bcast_S532480_S532480x1_0 : S532480.BroadcastsInDim S532480x1 (![0] : Fin 1 → Fin S532480x1.rank)
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x128_S256x128_0_0 : ∀ a, (![0, 0] : Fin 2 → Nat) a + S256x128.size a ≤ S256x128.size a
  h_S256x128 : 0 < S256x128.numel
  bcast_S532480x1_S532480x128_0_1 : S532480x1.BroadcastsInDim S532480x128 (![0, 1] : Fin 2 → Fin S532480x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S532480x1_S532480x64_0_1 : S532480x1.BroadcastsInDim S532480x64 (![0, 1] : Fin 2 → Fin S532480x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  slices_S128x86_S64x86_0_0 : S128x86.Slices ![0, 0] S64x86
  slices_S128x86_S64x86_64_0 : S128x86.Slices ![64, 0] S64x86
  bcast_S_S262144 : S_.BroadcastsInDim S262144 (![] : Fin 0 → Fin S262144.rank)
  bcast_S262144_S262144x1_0 : S262144.BroadcastsInDim S262144x1 (![0] : Fin 1 → Fin S262144x1.rank)
  bcast_S86_S1x86_1 : S86.BroadcastsInDim S1x86 (![1] : Fin 1 → Fin S1x86.rank)
  bcast_S1x86_S262144x86_0_1 : S1x86.BroadcastsInDim S262144x86 (![0, 1] : Fin 2 → Fin S262144x86.rank)
  bcast_S_S262144x86 : S_.BroadcastsInDim S262144x86 (![] : Fin 0 → Fin S262144x86.rank)
  scatter_S8192_S532480x1_S532480_n_0_0_1_wf : ScatterDims.WF S8192 S532480x1 S532480 [] [0] [0] 1
  gather_S8192_S532480x1_S532480_n_0_n_n_0_1_1_wf : GatherDims.WF S8192 S532480x1 S532480 [] [0] [] [0] [] 1 ![1]
  dot_S256x8192_S8192x128_S256x128_1_0_0_1_n_n_wf : DotDims.WF S256x8192 S8192x128 S256x128 [1] [0] [0] [1] [] []
  gather_S8192x128_S532480x1_S532480x128_1_0_n_n_0_1_1128_wf : GatherDims.WF S8192x128 S532480x1 S532480x128 [1] [0] [] [0] [] 1 ![1, 128]
  scatter_S8192x128_S532480x1_S532480x128_1_0_0_1_wf : ScatterDims.WF S8192x128 S532480x1 S532480x128 [1] [0] [0] 1
  dot_S8192x128_S128x64_S8192x64_1_0_0_1_n_n_wf : DotDims.WF S8192x128 S128x64 S8192x64 [1] [0] [0] [1] [] []
  gather_S8192x64_S532480x1_S532480x64_1_0_n_n_0_1_164_wf : GatherDims.WF S8192x64 S532480x1 S532480x64 [1] [0] [] [0] [] 1 ![1, 64]
  scatter_S8192x64_S532480x1_S532480x64_1_0_0_1_wf : ScatterDims.WF S8192x64 S532480x1 S532480x64 [1] [0] [0] 1
  dot_S8192x64_S64x86_S8192x86_1_0_0_1_n_n_wf : DotDims.WF S8192x64 S64x86 S8192x86 [1] [0] [0] [1] [] []
  gather_S8192x86_S262144x1_S262144x86_1_0_n_n_0_1_186_wf : GatherDims.WF S8192x86 S262144x1 S262144x86 [1] [0] [] [0] [] 1 ![1, 86]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S8192x128.size a
  hwx0_2 : ∀ i : grid0.Coords, EltTy.bits .f32 = 32 ∨ (Rect.block (s := S8192x128) S256x128.size (cc0_transform_2 i) (hinb0_2 i)).WholeWords (EltTy.packing .f32)

variable [Facts₀]

def scatter_S8192_S532480x1_S532480_n_0_0_1 : ScatterDims S8192 S532480x1 S532480 where
  updateWindowDims := []
  insertedWindowDims := [0]
  scatterDimsToOperandDims := [0]
  indexVectorDim := 1
  wf := scatter_S8192_S532480x1_S532480_n_0_0_1_wf
def gather_S8192_S532480x1_S532480_n_0_n_n_0_1_1 : GatherDims S8192 S532480x1 S532480 where
  offsetDims := []
  collapsedSliceDims := [0]
  operandBatchingDims := []
  startIndicesBatchingDims := []
  startIndexMap := [0]
  indexVectorDim := 1
  sliceSizes := ![1]
  wf := gather_S8192_S532480x1_S532480_n_0_n_n_0_1_1_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def gather_S8192x128_S532480x1_S532480x128_1_0_n_n_0_1_1128 : GatherDims S8192x128 S532480x1 S532480x128 where
  offsetDims := [1]
  collapsedSliceDims := [0]
  operandBatchingDims := []
  startIndicesBatchingDims := []
  startIndexMap := [0]
  indexVectorDim := 1
  sliceSizes := ![1, 128]
  wf := gather_S8192x128_S532480x1_S532480x128_1_0_n_n_0_1_1128_wf
def scatter_S8192x128_S532480x1_S532480x128_1_0_0_1 : ScatterDims S8192x128 S532480x1 S532480x128 where
  updateWindowDims := [1]
  insertedWindowDims := [0]
  scatterDimsToOperandDims := [0]
  indexVectorDim := 1
  wf := scatter_S8192x128_S532480x1_S532480x128_1_0_0_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S8192x64_S532480x1_S532480x64_1_0_n_n_0_1_164 : GatherDims S8192x64 S532480x1 S532480x64 where
  offsetDims := [1]
  collapsedSliceDims := [0]
  operandBatchingDims := []
  startIndicesBatchingDims := []
  startIndexMap := [0]
  indexVectorDim := 1
  sliceSizes := ![1, 64]
  wf := gather_S8192x64_S532480x1_S532480x64_1_0_n_n_0_1_164_wf
def scatter_S8192x64_S532480x1_S532480x64_1_0_0_1 : ScatterDims S8192x64 S532480x1 S532480x64 where
  updateWindowDims := [1]
  insertedWindowDims := [0]
  scatterDimsToOperandDims := [0]
  indexVectorDim := 1
  wf := scatter_S8192x64_S532480x1_S532480x64_1_0_0_1_wf
def dot_S8192x64_S64x86_S8192x86_1_0_0_1_n_n : DotDims S8192x64 S64x86 S8192x86 where
  lhsContracting := [1]
  rhsContracting := [0]
  lhsNonContracting := [0]
  rhsNonContracting := [1]
  lhsBatch := []
  rhsBatch := []
  wf := dot_S8192x64_S64x86_S8192x86_1_0_0_1_n_n_wf
def gather_S8192x86_S262144x1_S262144x86_1_0_n_n_0_1_186 : GatherDims S8192x86 S262144x1 S262144x86 where
  offsetDims := [1]
  collapsedSliceDims := [0]
  operandBatchingDims := []
  startIndicesBatchingDims := []
  startIndexMap := [0]
  indexVectorDim := 1
  sliceSizes := ![1, 86]
  wf := gather_S8192x86_S262144x1_S262144x86_1_0_n_n_0_1_186_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S2x524288 : Shape := ⟨2, ![2, 524288]⟩
abbrev S262144 : Shape := ⟨1, ![262144]⟩
abbrev S8192x128 : Shape := ⟨2, ![8192, 128]⟩
abbrev S128 : Shape := ⟨1, ![128]⟩
abbrev S128x64 : Shape := ⟨2, ![128, 64]⟩
abbrev S64 : Shape := ⟨1, ![64]⟩
abbrev S128x86 : Shape := ⟨2, ![128, 86]⟩
abbrev S86 : Shape := ⟨1, ![86]⟩
abbrev S1x524288 : Shape := ⟨2, ![1, 524288]⟩
abbrev S524288 : Shape := ⟨1, ![524288]⟩
abbrev S8192 : Shape := ⟨1, ![8192]⟩
abbrev S532480 : Shape := ⟨1, ![532480]⟩
abbrev S_ : Shape := ⟨0, ![]⟩
abbrev S532480x1 : Shape := ⟨2, ![532480, 1]⟩
abbrev S532480x128 : Shape := ⟨2, ![532480, 128]⟩
abbrev S1x128 : Shape := ⟨2, ![1, 128]⟩
abbrev S8192x64 : Shape := ⟨2, ![8192, 64]⟩
abbrev S532480x64 : Shape := ⟨2, ![532480, 64]⟩
abbrev S1x64 : Shape := ⟨2, ![1, 64]⟩
abbrev S262144x1 : Shape := ⟨2, ![262144, 1]⟩
abbrev S262144x64 : Shape := ⟨2, ![262144, 64]⟩
abbrev S262144x128 : Shape := ⟨2, ![262144, 128]⟩
abbrev S262144x86 : Shape := ⟨2, ![262144, 86]⟩
abbrev S1x86 : Shape := ⟨2, ![1, 86]⟩

abbrev nBuf : Space → Nat
  | .hbm => 163
  | .vmem => 0
  | .smem => 0
  | _ => 0

abbrev hbmTy0_0 (i : Nat) : BufTy := match i % 128 with
  | 0 => ⟨S8192x8192, .f32⟩
  | 1 => ⟨S2x524288, .i32⟩
  | 2 => ⟨S262144, .i32⟩
  | 3 => ⟨S262144, .i32⟩
  | 4 => ⟨S8192x128, .f32⟩
  | 5 => ⟨S128, .f32⟩
  | 6 => ⟨S128x64, .f32⟩
  | 7 => ⟨S64, .f32⟩
  | 8 => ⟨S128x86, .f32⟩
  | 9 => ⟨S86, .f32⟩
  | 10 => ⟨S1x524288, .i32⟩
  | 11 => ⟨S524288, .i32⟩
  | 12 => ⟨S1x524288, .i32⟩
  | 13 => ⟨S524288, .i32⟩
  | 14 => ⟨S8192x128, .f32⟩
  | 15 => ⟨S8192, .i32⟩
  | 16 => ⟨S532480, .i32⟩
  | 17 => ⟨S532480, .i32⟩
  | 18 => ⟨S_, .f32⟩
  | 19 => ⟨S532480, .f32⟩
  | 20 => ⟨S_, .f32⟩
  | 21 => ⟨S8192, .f32⟩
  | 22 => ⟨S532480x1, .i32⟩
  | 23 => ⟨S8192, .f32⟩
  | 24 => ⟨S_, .f32⟩
  | 25 => ⟨S8192, .f32⟩
  | 26 => ⟨S8192, .i1⟩
  | 27 => ⟨S8192, .f32⟩
  | 28 => ⟨S_, .f32⟩
  | 29 => ⟨S_, .f32⟩
  | 30 => ⟨S8192, .f32⟩
  | 31 => ⟨S8192, .f32⟩
  | 32 => ⟨S_, .i32⟩
  | 33 => ⟨S532480, .i32⟩
  | 34 => ⟨S532480, .i1⟩
  | 35 => ⟨S_, .i32⟩
  | 36 => ⟨S532480, .i32⟩
  | 37 => ⟨S532480, .i32⟩
  | 38 => ⟨S532480, .i32⟩
  | 39 => ⟨S532480x1, .i32⟩
  | 40 => ⟨S532480, .f32⟩
  | 41 => ⟨S_, .i32⟩
  | 42 => ⟨S532480, .i32⟩
  | 43 => ⟨S532480, .i1⟩
  | 44 => ⟨S_, .i32⟩
  | 45 => ⟨S532480, .i32⟩
  | 46 => ⟨S532480, .i32⟩
  | 47 => ⟨S532480, .i32⟩
  | 48 => ⟨S532480x1, .i32⟩
  | 49 => ⟨S532480, .f32⟩
  | 50 => ⟨S532480, .f32⟩
  | 51 => ⟨S_, .i32⟩
  | 52 => ⟨S532480, .i32⟩
  | 53 => ⟨S532480, .i1⟩
  | 54 => ⟨S_, .i32⟩
  | 55 => ⟨S532480, .i32⟩
  | 56 => ⟨S532480, .i32⟩
  | 57 => ⟨S532480, .i32⟩
  | 58 => ⟨S532480x1, .i32⟩
  | 59 => ⟨S532480x128, .f32⟩
  | 60 => ⟨S532480x1, .f32⟩
  | 61 => ⟨S532480x128, .f32⟩
  | 62 => ⟨S532480x128, .f32⟩
  | 63 => ⟨S_, .f32⟩
  | 64 => ⟨S8192x128, .f32⟩
  | 65 => ⟨S532480x1, .i32⟩
  | 66 => ⟨S8192x128, .f32⟩
  | 67 => ⟨S1x128, .f32⟩
  | 68 => ⟨S8192x128, .f32⟩
  | 69 => ⟨S8192x128, .f32⟩
  | 70 => ⟨S_, .f32⟩
  | 71 => ⟨S8192x128, .f32⟩
  | 72 => ⟨S8192x128, .f32⟩
  | 73 => ⟨S8192x64, .f32⟩
  | 74 => ⟨S8192, .i32⟩
  | 75 => ⟨S532480, .i32⟩
  | 76 => ⟨S532480, .i32⟩
  | 77 => ⟨S_, .f32⟩
  | 78 => ⟨S532480, .f32⟩
  | 79 => ⟨S_, .f32⟩
  | 80 => ⟨S8192, .f32⟩
  | 81 => ⟨S532480x1, .i32⟩
  | 82 => ⟨S8192, .f32⟩
  | 83 => ⟨S_, .f32⟩
  | 84 => ⟨S8192, .f32⟩
  | 85 => ⟨S8192, .i1⟩
  | 86 => ⟨S8192, .f32⟩
  | 87 => ⟨S_, .f32⟩
  | 88 => ⟨S_, .f32⟩
  | 89 => ⟨S8192, .f32⟩
  | 90 => ⟨S8192, .f32⟩
  | 91 => ⟨S_, .i32⟩
  | 92 => ⟨S532480, .i32⟩
  | 93 => ⟨S532480, .i1⟩
  | 94 => ⟨S_, .i32⟩
  | 95 => ⟨S532480, .i32⟩
  | 96 => ⟨S532480, .i32⟩
  | 97 => ⟨S532480, .i32⟩
  | 98 => ⟨S532480x1, .i32⟩
  | 99 => ⟨S532480, .f32⟩
  | 100 => ⟨S_, .i32⟩
  | 101 => ⟨S532480, .i32⟩
  | 102 => ⟨S532480, .i1⟩
  | 103 => ⟨S_, .i32⟩
  | 104 => ⟨S532480, .i32⟩
  | 105 => ⟨S532480, .i32⟩
  | 106 => ⟨S532480, .i32⟩
  | 107 => ⟨S532480x1, .i32⟩
  | 108 => ⟨S532480, .f32⟩
  | 109 => ⟨S532480, .f32⟩
  | 110 => ⟨S_, .i32⟩
  | 111 => ⟨S532480, .i32⟩
  | 112 => ⟨S532480, .i1⟩
  | 113 => ⟨S_, .i32⟩
  | 114 => ⟨S532480, .i32⟩
  | 115 => ⟨S532480, .i32⟩
  | 116 => ⟨S532480, .i32⟩
  | 117 => ⟨S532480x1, .i32⟩
  | 118 => ⟨S532480x64, .f32⟩
  | 119 => ⟨S532480x1, .f32⟩
  | 120 => ⟨S532480x64, .f32⟩
  | 121 => ⟨S532480x64, .f32⟩
  | 122 => ⟨S_, .f32⟩
  | 123 => ⟨S8192x64, .f32⟩
  | 124 => ⟨S532480x1, .i32⟩
  | 125 => ⟨S8192x64, .f32⟩
  | 126 => ⟨S1x64, .f32⟩
  | 127 => ⟨S8192x64, .f32⟩
  | _ => ⟨S8192x8192, .f32⟩

abbrev hbmTy0_1 (i : Nat) : BufTy := match i % 128 with
  | 0 => ⟨S8192x64, .f32⟩
  | 1 => ⟨S_, .f32⟩
  | 2 => ⟨S8192x64, .f32⟩
  | 3 => ⟨S8192x64, .f32⟩
  | 4 => ⟨S_, .i32⟩
  | 5 => ⟨S262144, .i32⟩
  | 6 => ⟨S262144, .i1⟩
  | 7 => ⟨S_, .i32⟩
  | 8 => ⟨S262144, .i32⟩
  | 9 => ⟨S262144, .i32⟩
  | 10 => ⟨S262144, .i32⟩
  | 11 => ⟨S262144x1, .i32⟩
  | 12 => ⟨S262144x64, .f32⟩
  | 13 => ⟨S_, .i32⟩
  | 14 => ⟨S262144, .i32⟩
  | 15 => ⟨S262144, .i1⟩
  | 16 => ⟨S_, .i32⟩
  | 17 => ⟨S262144, .i32⟩
  | 18 => ⟨S262144, .i32⟩
  | 19 => ⟨S262144, .i32⟩
  | 20 => ⟨S262144x1, .i32⟩
  | 21 => ⟨S262144x64, .f32⟩
  | 22 => ⟨S262144x128, .f32⟩
  | 23 => ⟨S262144x86, .f32⟩
  | 24 => ⟨S1x86, .f32⟩
  | 25 => ⟨S262144x86, .f32⟩
  | 26 => ⟨S262144x86, .f32⟩
  | 27 => ⟨S262144x86, .f32⟩
  | 28 => ⟨S262144x86, .f32⟩
  | 29 => ⟨S_, .f32⟩
  | 30 => ⟨S262144x86, .f32⟩
  | 31 => ⟨S262144x86, .f32⟩
  | 32 => ⟨S_, .f32⟩
  | 33 => ⟨S262144x86, .f32⟩
  | 34 => ⟨S262144x86, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_call3_cst : Ref sig .tc := ⟨.hbm, 129, rfl⟩
abbrev main_call3_v0 : Ref sig .tc := ⟨.hbm, 130, rfl⟩
abbrev main_v91 : Ref sig .tc := ⟨.hbm, 131, rfl⟩
abbrev main_c_20 : Ref sig .tc := ⟨.hbm, 132, rfl⟩
abbrev main_v92 : Ref sig .tc := ⟨.hbm, 133, rfl⟩
abbrev main_v93 : Ref sig .tc := ⟨.hbm, 134, rfl⟩
abbrev main_c_21 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_22 : Ref sig .tc := ⟨.hbm, 141, rfl⟩
abbrev main_v99 : Ref sig .tc := ⟨.hbm, 142, rfl⟩
abbrev main_v100 : Ref sig .tc := ⟨.hbm, 143, rfl⟩
abbrev main_c_23 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_24 : Ref sig .tc := ⟨.hbm, 157, rfl⟩
abbrev main_v113 : Ref sig .tc := ⟨.hbm, 158, rfl⟩
abbrev main_v114 : Ref sig .tc := ⟨.hbm, 159, rfl⟩
abbrev main_cst_25 : Ref sig .tc := ⟨.hbm, 160, rfl⟩
abbrev main_v115 : Ref sig .tc := ⟨.hbm, 161, rfl⟩
abbrev main_v116 : Ref sig .tc := ⟨.hbm, 162, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S8192_S532480_d0 : Shape.Concatenates [S524288, S8192] S532480 0
  bcast_S_S532480 : S_.BroadcastsInDim S532480 (![] : Fin 0 → Fin S532480.rank)
  bcast_S_S8192 : S_.BroadcastsInDim S8192 (![] : Fin 0 → Fin S8192.rank)
  bcast_S532480_S532480x1_0 : S532480.BroadcastsInDim S532480x1 (![0] : Fin 1 → Fin S532480x1.rank)
  bcast_S532480x1_S532480x128_0_1 : S532480x1.BroadcastsInDim S532480x128 (![0, 1] : Fin 2 → Fin S532480x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S532480x1_S532480x64_0_1 : S532480x1.BroadcastsInDim S532480x64 (![0, 1] : Fin 2 → Fin S532480x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x64_S262144x64_S262144x128_d1 : Shape.Concatenates [S262144x64, S262144x64] S262144x128 1
  bcast_S86_S1x86_1 : S86.BroadcastsInDim S1x86 (![1] : Fin 1 → Fin S1x86.rank)
  bcast_S1x86_S262144x86_0_1 : S1x86.BroadcastsInDim S262144x86 (![0, 1] : Fin 2 → Fin S262144x86.rank)
  bcast_S_S262144x86 : S_.BroadcastsInDim S262144x86 (![] : Fin 0 → Fin S262144x86.rank)
  dot_S8192x8192_S8192x128_S8192x128_1_0_0_1_n_n_wf : DotDims.WF S8192x8192 S8192x128 S8192x128 [1] [0] [0] [1] [] []
  scatter_S8192_S532480x1_S532480_n_0_0_1_wf : ScatterDims.WF S8192 S532480x1 S532480 [] [0] [0] 1
  gather_S8192_S532480x1_S532480_n_0_n_n_0_1_1_wf : GatherDims.WF S8192 S532480x1 S532480 [] [0] [] [0] [] 1 ![1]
  gather_S8192x128_S532480x1_S532480x128_1_0_n_n_0_1_1128_wf : GatherDims.WF S8192x128 S532480x1 S532480x128 [1] [0] [] [0] [] 1 ![1, 128]
  scatter_S8192x128_S532480x1_S532480x128_1_0_0_1_wf : ScatterDims.WF S8192x128 S532480x1 S532480x128 [1] [0] [0] 1
  dot_S8192x128_S128x64_S8192x64_1_0_0_1_n_n_wf : DotDims.WF S8192x128 S128x64 S8192x64 [1] [0] [0] [1] [] []
  gather_S8192x64_S532480x1_S532480x64_1_0_n_n_0_1_164_wf : GatherDims.WF S8192x64 S532480x1 S532480x64 [1] [0] [] [0] [] 1 ![1, 64]
  scatter_S8192x64_S532480x1_S532480x64_1_0_0_1_wf : ScatterDims.WF S8192x64 S532480x1 S532480x64 [1] [0] [0] 1
  gather_S8192x64_S262144x1_S262144x64_1_0_n_n_0_1_164_wf : GatherDims.WF S8192x64 S262144x1 S262144x64 [1] [0] [] [0] [] 1 ![1, 64]
  dot_S262144x128_S128x86_S262144x86_1_0_0_1_n_n_wf : DotDims.WF S262144x128 S128x86 S262144x86 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def scatter_S8192_S532480x1_S532480_n_0_0_1 : ScatterDims S8192 S532480x1 S532480 where
  updateWindowDims := []
  insertedWindowDims := [0]
  scatterDimsToOperandDims := [0]
  indexVectorDim := 1
  wf := scatter_S8192_S532480x1_S532480_n_0_0_1_wf
def gather_S8192_S532480x1_S532480_n_0_n_n_0_1_1 : GatherDims S8192 S532480x1 S532480 where
  offsetDims := []
  collapsedSliceDims := [0]
  operandBatchingDims := []
  startIndicesBatchingDims := []
  startIndexMap := [0]
  indexVectorDim := 1
  sliceSizes := ![1]
  wf := gather_S8192_S532480x1_S532480_n_0_n_n_0_1_1_wf
def gather_S8192x128_S532480x1_S532480x128_1_0_n_n_0_1_1128 : GatherDims S8192x128 S532480x1 S532480x128 where
  offsetDims := [1]
  collapsedSliceDims := [0]
  operandBatchingDims := []
  startIndicesBatchingDims := []
  startIndexMap := [0]
  indexVectorDim := 1
  sliceSizes := ![1, 128]
  wf := gather_S8192x128_S532480x1_S532480x128_1_0_n_n_0_1_1128_wf
def scatter_S8192x128_S532480x1_S532480x128_1_0_0_1 : ScatterDims S8192x128 S532480x1 S532480x128 where
  updateWindowDims := [1]
  insertedWindowDims := [0]
  scatterDimsToOperandDims := [0]
  indexVectorDim := 1
  wf := scatter_S8192x128_S532480x1_S532480x128_1_0_0_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S8192x64_S532480x1_S532480x64_1_0_n_n_0_1_164 : GatherDims S8192x64 S532480x1 S532480x64 where
  offsetDims := [1]
  collapsedSliceDims := [0]
  operandBatchingDims := []
  startIndicesBatchingDims := []
  startIndexMap := [0]
  indexVectorDim := 1
  sliceSizes := ![1, 64]
  wf := gather_S8192x64_S532480x1_S532480x64_1_0_n_n_0_1_164_wf
def scatter_S8192x64_S532480x1_S532480x64_1_0_0_1 : ScatterDims S8192x64 S532480x1 S532480x64 where
  updateWindowDims := [1]
  insertedWindowDims := [0]
  scatterDimsToOperandDims := [0]
  indexVectorDim := 1
  wf := scatter_S8192x64_S532480x1_S532480x64_1_0_0_1_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def dot_S262144x128_S128x86_S262144x86_1_0_0_1_n_n : DotDims S262144x128 S128x86 S262144x86 where
  lhsContracting := [1]
  rhsContracting := [0]
  lhsNonContracting := [0]
  rhsNonContracting := [1]
  lhsBatch := []
  rhsBatch := []
  wf := dot_S262144x128_S128x86_S262144x86_1_0_0_1_n_n_wf

class Facts : Prop extends Facts₀ where

variable [Facts]
-- ==== Proof.BitsHostSides.lean ====
/-
  The program around its one kernel launch. The host lines before the launch build the two edge lists (sources and
  destinations, each with the 8192 self-loops appended), the degree of every node, its inverse square root (zero for a
  node of degree zero) and the coefficient of every edge, and narrow the first layer's weights. The lines after it
  aggregate the launch's product edge by edge, add the bias and clamp at zero, do the same for the second layer, project
  the node table by the two halves of the last weight matrix, pick the two rows of every pair and take the logistic.
  This module says what every buffer holds when the launch is entered, that the lines after the launch touch only
  buffers that outlive it, allocate nothing and write none of its three arrays, and that no line writes an argument.
-/
import proofs.«157748_j10273561772323_2_alg».proof.Proof.Gen.Kernel.Launch
import Idealize.ShloMosaic.Lib.Pipeline.FrameBody
import Idealize.ShloMosaic.Lib.Pipeline.FrameSuffix

set_option maxRecDepth 16384

noncomputable section

namespace Cert.Kernel.Sides

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## What the launch finds -/

/-- Every buffer of core `c` when the launch is entered: the memory the program starts from, rewritten by the host
    lines that come before the launch, in order. -/
abbrev V0 (c : Dev nD) : Valuation τ sig (Elt F) :=
  StableHlo.after (List.flatten [hostOps0, hostOps0_1, hostOps0_2]) (fun b => m (c, b))
/-- The same, read at a reference of the core. -/
abbrev V (c : Dev nD) (b : Ref sig .tc) : Buf (Elt F) ((c : Thread nD τ).loc b) := V0 m c (Proc.devRef .tc b)

/-- A property of every operation of every stretch holds of every operation of the stretches joined. -/
theorem forall_flatten {α : Type} {p : α → Prop} {ls : List (List α)} (h : ∀ l ∈ ls, ∀ x ∈ l, p x) : ls.flatten.Forall p :=
  List.forall_iff_forall_mem.mpr fun x hx => by
    obtain ⟨l, hl, hxl⟩ := List.mem_flatten.mp hx
    exact h l hl x hxl

/-! ## No host line allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-! ## The program is: three stretches of host lines, the launch, five stretches of host lines -/

/-- The program, run from `m`, reaches the launch with the buffers at `V`, and continues after it with the five later
    stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0, hostOps0_1, hostOps0_2] [hostOps1, hostOps1_1, hostOps1_2, hostOps1_3, hostOps1_4]
    (List.forall_iff_forall_mem.mpr fun ops hops => by
      simp only [List.mem_cons, List.mem_nil_iff, or_false] at hops
      rcases hops with rfl | rfl | rfl
      exacts [hostOps0_sub, hostOps0_1_sub, hostOps0_2_sub])
    (List.forall_iff_forall_mem.mpr fun ops hops => by
      simp only [List.mem_cons, List.mem_nil_iff, or_false] at hops
      rcases hops with rfl | rfl | rfl
      exacts [hostOps0_fresh, hostOps0_1_fresh, hostOps0_2_fresh])
    main_chain

/-! ## The lines after the launch -/

/-- They touch only the launch's arrays and buffers that bypass the launch. -/
theorem tail_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem tail_fresh : ∀ ops ∈ ([hostOps1, hostOps1_1, hostOps1_2, hostOps1_3, hostOps1_4] : List (List (HloOp τ sig (Elt F)))), ∀ op ∈ ops,
    op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-! ## Which buffers the host lines write

Every host line writes exactly one buffer, its result's. The results of the lines before the launch and of the lines
after it are listed; an argument, or an array of the launch, is in neither list where that matters. -/

/-- The results of the 41 lines before the launch. -/
abbrev writtenBefore : List (Ref sig .tc) :=
  [
    main_v0, main_v1, main_v2, main_v3, main_v4, main_v5, main_v6, main_cst,
    main_v7, main_cst_0, main_v8, main_v9, main_v10, main_cst_1, main_v11, main_v12,
    main_v13, main_cst_2, main_call0_v0, main_call0_v1, main_v14, main_c, main_v15, main_v16,
    main_c_3, main_v17, main_v18, main_v19, main_v20, main_v21, main_c_4, main_v22,
    main_v23, main_c_5, main_v24, main_v25, main_v26, main_v27, main_v28, main_v29,
    main_v30 ]

/-- The results of the 79 lines after the launch. -/
abbrev writtenAfter : List (Ref sig .tc) :=
  [
    main_c_6, main_v32, main_v33, main_c_7, main_v34, main_v35, main_v36, main_v37,
    main_v38, main_v39, main_v40, main_v41, main_cst_8, main_v42, main_v43, main_v44,
    main_v45, main_v46, main_v47, main_call1_cst, main_call1_v0, main_v48, main_v49, main_c_9,
    main_v50, main_v51, main_c_10, main_v52, main_v53, main_v54, main_v55, main_v56,
    main_v57, main_v58, main_v59, main_cst_11, main_v60, main_v61, main_v62, main_v63,
    main_v64, main_v65, main_call2_cst, main_call2_v0, main_v66, main_v67, main_v68, main_v69,
    main_v70, main_c_12, main_v71, main_v72, main_c_13, main_v73, main_v74, main_v75,
    main_v76, main_v77, main_c_14, main_v78, main_v79, main_c_15, main_v80, main_v81,
    main_v82, main_v83, main_v84, main_v85, main_v86, main_v87, main_v88, main_v89,
    main_v90, main_cst_16, main_v91, main_v92, main_cst_17, main_v93, main_v94 ]

/-- A line whose one result is in a list writes inside that list. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem hostOps0_writes : (hostOps0 : List (HloOp τ sig (Elt F))).Forall fun op => op.writes ⊆ (writtenBefore.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact single_sub (by decide)
theorem hostOps0_1_writes : (hostOps0_1 : List (HloOp τ sig (Elt F))).Forall fun op => op.writes ⊆ (writtenBefore.map (Proc.devRef (τ := τ) .tc)).toFinset := by
  simp only [hostOps0_1, List.Forall, StableHlo.nullary_writes, StableHlo.unary_writes, StableHlo.binary_writes, StableHlo.ternary_writes, StableHlo.reshape_writes]
  repeat' apply And.intro
  all_goals exact single_sub (by decide)
theorem hostOps0_2_writes : (hostOps0_2 : List (HloOp τ sig (Elt F))).Forall fun op => op.writes ⊆ (writtenBefore.map (Proc.devRef (τ := τ) .tc)).toFinset := by
  simp only [hostOps0_2, List.Forall, StableHlo.nullary_writes, StableHlo.unary_writes, StableHlo.binary_writes, StableHlo.ternary_writes, StableHlo.reshape_writes]
  repeat' apply And.intro
  all_goals exact single_sub (by decide)
theorem hostOps1_writes : (hostOps1 : List (HloOp τ sig (Elt F))).Forall fun op => op.writes ⊆ (writtenAfter.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact single_sub (by decide)
theorem hostOps1_1_writes : (hostOps1_1 : List (HloOp τ sig (Elt F))).Forall fun op => op.writes ⊆ (writtenAfter.map (Proc.devRef (τ := τ) .tc)).toFinset := by
  simp only [hostOps1_1, List.Forall, StableHlo.nullary_writes, StableHlo.unary_writes, StableHlo.binary_writes, StableHlo.ternary_writes, StableHlo.reshape_writes]
  repeat' apply And.intro
  all_goals exact single_sub (by decide)
theorem hostOps1_2_writes : (hostOps1_2 : List (HloOp τ sig (Elt F))).Forall fun op => op.writes ⊆ (writtenAfter.map (Proc.devRef (τ := τ) .tc)).toFinset := by
  simp only [hostOps1_2, List.Forall, StableHlo.nullary_writes, StableHlo.unary_writes, StableHlo.binary_writes, StableHlo.ternary_writes, StableHlo.reshape_writes]
  repeat' apply And.intro
  all_goals exact single_sub (by decide)
theorem hostOps1_3_writes : (hostOps1_3 : List (HloOp τ sig (Elt F))).Forall fun op => op.writes ⊆ (writtenAfter.map (Proc.devRef (τ := τ) .tc)).toFinset := by
  simp only [hostOps1_3, List.Forall, StableHlo.nullary_writes, StableHlo.unary_writes, StableHlo.binary_writes, StableHlo.ternary_writes, StableHlo.reshape_writes]
  repeat' apply And.intro
  all_goals exact single_sub (by decide)
theorem hostOps1_4_writes : (hostOps1_4 : List (HloOp τ sig (Elt F))).Forall fun op => op.writes ⊆ (writtenAfter.map (Proc.devRef (τ := τ) .tc)).toFinset := by
  simp only [hostOps1_4, List.Forall, StableHlo.nullary_writes, StableHlo.unary_writes, StableHlo.binary_writes, StableHlo.ternary_writes, StableHlo.reshape_writes]
  repeat' apply And.intro
  all_goals exact single_sub (by decide)

/-- Every line before the launch writes inside `writtenBefore`. -/
theorem before_writes : (List.flatten [hostOps0, hostOps0_1, hostOps0_2] : List (HloOp τ sig (Elt F))).Forall
    fun op => op.writes ⊆ (writtenBefore.map (Proc.devRef (τ := τ) .tc)).toFinset :=
  forall_flatten fun ops hops => by
    simp only [List.mem_cons, List.mem_nil_iff, or_false] at hops
    rcases hops with rfl | rfl | rfl
    exacts [List.forall_iff_forall_mem.mp hostOps0_writes, List.forall_iff_forall_mem.mp hostOps0_1_writes,
      List.forall_iff_forall_mem.mp hostOps0_2_writes]

/-- Every line after the launch writes inside `writtenAfter`. -/
theorem after_writes_mem : ∀ ops ∈ ([hostOps1, hostOps1_1, hostOps1_2, hostOps1_3, hostOps1_4] : List (List (HloOp τ sig (Elt F)))), ∀ op ∈ ops,
    op.writes ⊆ (writtenAfter.map (Proc.devRef (τ := τ) .tc)).toFinset := by
  intro ops hops
  simp only [List.mem_cons, List.mem_nil_iff, or_false] at hops
  rcases hops with rfl | rfl | rfl | rfl | rfl
  exacts [List.forall_iff_forall_mem.mp hostOps1_writes, List.forall_iff_forall_mem.mp hostOps1_1_writes,
    List.forall_iff_forall_mem.mp hostOps1_2_writes, List.forall_iff_forall_mem.mp hostOps1_3_writes,
    List.forall_iff_forall_mem.mp hostOps1_4_writes]

theorem after_writes : (List.flatten [hostOps1, hostOps1_1, hostOps1_2, hostOps1_3, hostOps1_4] : List (HloOp τ sig (Elt F))).Forall
    fun op => op.writes ⊆ (writtenAfter.map (Proc.devRef (τ := τ) .tc)).toFinset :=
  forall_flatten after_writes_mem

/-- No line after the launch writes one of the launch's three arrays (the matrix `x`, the narrowed weights, the
    product): none of the three is the result of such a line. -/
theorem tail_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop w hmem
  obtain ⟨y, hy, he⟩ := List.mem_map.mp (List.mem_toFinset.mp (after_writes_mem ops hops op hop hmem))
  exact (by decide : ∀ w, Pipeline.arrRef spec0 w ∉ writtenAfter) w (Proc.devRef_injective _ he ▸ hy)

/-- A buffer that is no result of a line before the launch is found by the launch as the program started with it. -/
theorem entry_kept (c : Dev nD) (r : Ref sig .tc) (hr : r ∉ writtenBefore) : V m c r = m ((c : Thread nD τ).loc r) :=
  StableHlo.after_of_writes_sub _ _ before_writes hr

/-- A buffer that is neither an array of the launch nor a result of a line after it ends as the launch found it. -/
theorem exit_kept (dats : (p : Fin _) → (c : Dev nD) → Dat τ (Elt F) Unit ℕ (UR sig nD τ) ℕ (cfgs p) c) (c : Dev nD)
    (r : Ref sig .tc) (hr : r ∉ writtenAfter) (hr' : ∀ w, Pipeline.arrRef spec0 w ≠ r) :
    Pipeline.afterTail₀ cfgs dats 0 (V0 m) [hostOps1, hostOps1_1, hostOps1_2, hostOps1_3, hostOps1_4] c r = V m c r := by
  unfold Pipeline.afterTail₀
  rw [StableHlo.after_of_writes_sub _ _ after_writes hr, Pipeline.withArrays_of_ne _ c (V0 m c) _ r hr']

end Cert.Kernel.Sides

end
-- ==== Proof.BitsStripFrame.lean ====
/-
  The kernel launch and the frame of the whole program.

  The launch walks the 32 strips of 256 rows of the 8192 x 8192 matrix `x`. At strip `t` its body reads the strip
  (rows 256 t … 256 t + 255, all 8192 columns) and the whole 8192 x 128 matrix of narrowed weights, and stores their
  product, accumulated from zero, as the strip's 256 x 128 block of the result; it also reads the result's buffer once
  and uses nothing of what it read. So after the body the result's buffer holds `strip xb wb`, one store covering it,
  whatever it held before; the two inputs' buffers are left as they were.
  From that: every execution of the program terminates without a fault, the product array ends block by block at what
  the strips wrote, every other buffer the launch does not own ends as the host lines after the launch leave it, and
  the ten arguments end as they started.
-/
import proofs.«157748_j10273561772323_2_alg».proof.Proof.BitsHostSides
import proofs.«157748_j10273561772323_2_alg».proof.Proof.Gen.Kernel.Skeleton
import proofs.«157748_j10273561772323_2_alg».proof.Proof.Gen.Kernel.Points
import Idealize.ShloMosaic.Lib.Ring
import Idealize.ShloMosaic.Lib.Tactic

set_option maxRecDepth 16384

noncomputable section

namespace Cert.Kernel.Strips

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Sides

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window `w`'s block at strip `t`, cut from its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The strip of `x` is in its buffer when the body starts, at every strip. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weights, fetched once, are in their buffer when the body starts, at every strip: their block never moves. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

abbrev rectX : Rect S256x8192 := Rect.unit (s := S256x8192) ![0, 0] S256x8192.size inb_S256x8192_S256x8192_0_0
abbrev rectW : Rect S8192x128 := Rect.unit (s := S8192x128) ![0, 0] S8192x128.size inb_S8192x128_S8192x128_0_0
abbrev rectO : Rect S256x128 := Rect.unit (s := S256x128) ![0, 0] S256x128.size inb_S256x128_S256x128_0_0

/-- The result's buffer after the body, from the two input blocks: one store, of the whole 256 x 128 block, of the
    product of the strip (narrowed) by the weights, accumulated from zero. -/
def strip (xb : Vec F S256x8192 .f32) (wb : Vec F S8192x128 .bf16) : Vec F S256x128 .f32 :=
  View.canon [⟨rectO, k0_pay1 (View.ld xb rectX) (View.ld wb rectW)⟩]

/-- That one store covers the buffer. -/
theorem strip_cover (p0 : Vec F S256x128 .f32) (y : S256x128.Idx) :
    ∃ pc ∈ ([⟨rectO, p0⟩] : List (View.Piece (Elt F) S256x128 .f32)), y ∈ pc.1.set :=
  View.cover_of_tiled [⟨rectO, p0⟩] S256x128.size (by rfl) y

/-! ## The body -/

set_option maxHeartbeats 1000000 in
/-- The body, on whole buffers holding a strip `xb`, the weights `wb` and anything in the result's buffer, runs to
    its end leaving the inputs as they were and `strip xb wb` in the result's buffer. -/
theorem body_triple (c : Dev nD) (E : Set ℕ) (i : grid0.Coords)
    (arg1 : Memref sig .tc .vmem S256x8192 .f32) (harg1 : arg1.IsWhole) (arg2 : Memref sig .tc .vmem S8192x128 .bf16) (harg2 : arg2.IsWhole)
    (arg3 : Memref sig .tc .vmem S256x128 .f32) (harg3 : arg3.IsWhole)
    (xb : Vec F S256x8192 .f32) (wb : Vec F S8192x128 .bf16) (K : PUnit → sProp 𝕄) :
    iprop(owns (c : Thread nD τ) arg1 fullShare xb ∗ owns (c : Thread nD τ) arg2 fullShare wb ∗ (∃ d, owns (c : Thread nD τ) arg3 fullShare d)
        ∗ (iprop(owns (c : Thread nD τ) arg1 fullShare xb ∗ owns (c : Thread nD τ) arg2 fullShare wb ∗ owns (c : Thread nD τ) arg3 fullShare (strip xb wb)) -∗ K ⟨⟩))
      ⊢ wp frame (wpE (defs₀ (F := F)) Variants.none c none) E (cc0__matmul1_kernel i arg1 harg1 arg2 harg2 arg3 harg3) K := by
  simp only [cc0__matmul1_kernel_eq_skeleton]; unfold cc0__matmul1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (strip_cover _)

/-! ## The launch's proof data -/

/-- The arrays as the launch finds them; after the body at strip `t` each input's buffer at its block and the
    result's at the strip product; nothing else tracked, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => strip (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = strip (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d

/-! ## The body at a strip -/

/-- What the body is called with at strip `t`, the three windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  iintro ⟨HΦ, Ho, ⟨%d0, H0⟩, ⟨%d1, H1⟩, ⟨%d2, H2⟩⟩
  iapply (body_triple c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## The run -/

/-- The five stretches of host lines after the launch. -/
abbrev tailLines : List (List (HloOp τ sig (Elt F))) := [hostOps1, hostOps1_1, hostOps1_2, hostOps1_3, hostOps1_4]

set_option backward.isDefEq.respectTransparency.types false in
/-- Every execution of the program from `m` terminates without a fault; at the end each of the launch's arrays holds
    what its strips wrote back over what the launch found, and every other buffer that outlives the launch holds what
    the lines after the launch leave in it. -/
theorem run_main : θ_run defs (onTc (τ := τ) (main (F := F))) (s₀ m ρ)
    (Pipeline.FramePost cfgs (dats m) 0 (Pipeline.afterTail₀ cfgs (dats m) 0 (V0 m) tailLines)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailLines) (hsub := tail_sub) (hfresh := tail_fresh) (hkeep := tail_keeps)
    (hmain := hmain m Variants.none) (hA := A_eq m) (hΦ := fun _ _ => rfl)

/-- An argument that no window stages ends as it started. -/
theorem arg_kept (c : Dev nD) (r : Ref sig .tc) (h1 : r ∉ writtenBefore) (h2 : r ∉ writtenAfter) (h3 : ∀ w, Pipeline.arrRef spec0 w ≠ r) :
    Pipeline.afterTail₀ cfgs (dats m) 0 (V0 m) tailLines c r = m ((c : Thread nD τ).loc r) :=
  (exit_kept m (dats m) c r h2 h3).trans (entry_kept m c r h1)

/-- The program's run with its result named and its ten arguments unchanged. -/
theorem run_named : θ_run defs (onTc (τ := τ) (main (F := F))) ⟨m, fun _ => 0, ρ⟩ (fun r => ∀ c : Dev nD,
      r.2.mem ((c.tc : Thread nD τ).loc main_v94) = Pipeline.afterTail₀ cfgs (dats m) 0 (V0 m) tailLines c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c).2 main_v94 (Pipeline.mem_restRefs_of main_v94 (by decide) (by decide)),
     ((h c).1 0).trans (((dats m 0 c).arrAt_in 0 rfl _).trans ((A_eq m c 0).trans (entry_kept m c main_arg0 (by decide)))),
     ((h c).2 main_arg1 (Pipeline.mem_restRefs_of main_arg1 (by decide) (by decide))).trans (arg_kept m c main_arg1 (by decide) (by decide) (by decide)),
     ((h c).2 main_arg2 (Pipeline.mem_restRefs_of main_arg2 (by decide) (by decide))).trans (arg_kept m c main_arg2 (by decide) (by decide) (by decide)),
     ((h c).2 main_arg3 (Pipeline.mem_restRefs_of main_arg3 (by decide) (by decide))).trans (arg_kept m c main_arg3 (by decide) (by decide) (by decide)),
     ((h c).2 main_arg4 (Pipeline.mem_restRefs_of main_arg4 (by decide) (by decide))).trans (arg_kept m c main_arg4 (by decide) (by decide) (by decide)),
     ((h c).2 main_arg5 (Pipeline.mem_restRefs_of main_arg5 (by decide) (by decide))).trans (arg_kept m c main_arg5 (by decide) (by decide) (by decide)),
     ((h c).2 main_arg6 (Pipeline.mem_restRefs_of main_arg6 (by decide) (by decide))).trans (arg_kept m c main_arg6 (by decide) (by decide) (by decide)),
     ((h c).2 main_arg7 (Pipeline.mem_restRefs_of main_arg7 (by decide) (by decide))).trans (arg_kept m c main_arg7 (by decide) (by decide) (by decide)),
     ((h c).2 main_arg8 (Pipeline.mem_restRefs_of main_arg8 (by decide) (by decide))).trans (arg_kept m c main_arg8 (by decide) (by decide) (by decide)),
     ((h c).2 main_arg9 (Pipeline.mem_restRefs_of main_arg9 (by decide) (by decide))).trans (arg_kept m c main_arg9 (by decide) (by decide) (by decide))⟩)
    (run_main m ρ)

/-- The frame: the program runs to its end without a fault and its ten arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_named m ρ)

end Cert.Kernel.Strips

end
-- ==== Proof.IdealHostSides.lean ====
/-
  The program around its one kernel launch. The host lines before the launch build the two edge lists (sources and
  destinations, each with the 8192 self-loops appended), the degree of every node, its inverse square root (zero for a
  node of degree zero) and the coefficient of every edge, and narrow the first layer's weights. The lines after it
  aggregate the launch's product edge by edge, add the bias and clamp at zero, do the same for the second layer, project
  the node table by the two halves of the last weight matrix, pick the two rows of every pair and take the logistic.
  This module says what every buffer holds when the launch is entered, that the lines after the launch touch only
  buffers that outlive it, allocate nothing and write none of its three arrays, and that no line writes an argument.
-/
import proofs.«157748_j10273561772323_2_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Sides

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## What the launch finds -/

/-- Every buffer of core `c` when the launch is entered: the memory the program starts from, rewritten by the host
    lines that come before the launch, in order. -/
abbrev V0 (c : Dev nD) : Valuation τ sig (Elt F) :=
  StableHlo.after (List.flatten [hostOps0, hostOps0_1, hostOps0_2]) (fun b => m (c, b))
/-- The same, read at a reference of the core. -/
abbrev V (c : Dev nD) (b : Ref sig .tc) : Buf (Elt F) ((c : Thread nD τ).loc b) := V0 m c (Proc.devRef .tc b)

/-- A property of every operation of every stretch holds of every operation of the stretches joined. -/
theorem forall_flatten {α : Type} {p : α → Prop} {ls : List (List α)} (h : ∀ l ∈ ls, ∀ x ∈ l, p x) : ls.flatten.Forall p :=
  List.forall_iff_forall_mem.mpr fun x hx => by
    obtain ⟨l, hl, hxl⟩ := List.mem_flatten.mp hx
    exact h l hl x hxl

/-! ## No host line allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-! ## The program is: three stretches of host lines, the launch, five stretches of host lines -/

/-- The program, run from `m`, reaches the launch with the buffers at `V`, and continues after it with the five later
    stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0, hostOps0_1, hostOps0_2] [hostOps1, hostOps1_1, hostOps1_2, hostOps1_3, hostOps1_4]
    (List.forall_iff_forall_mem.mpr fun ops hops => by
      simp only [List.mem_cons, List.mem_nil_iff, or_false] at hops
      rcases hops with rfl | rfl | rfl
      exacts [hostOps0_sub, hostOps0_1_sub, hostOps0_2_sub])
    (List.forall_iff_forall_mem.mpr fun ops hops => by
      simp only [List.mem_cons, List.mem_nil_iff, or_false] at hops
      rcases hops with rfl | rfl | rfl
      exacts [hostOps0_fresh, hostOps0_1_fresh, hostOps0_2_fresh])
    main_chain

/-! ## The lines after the launch -/

/-- They touch only the launch's arrays and buffers that bypass the launch. -/
theorem tail_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem tail_fresh : ∀ ops ∈ ([hostOps1, hostOps1_1, hostOps1_2, hostOps1_3, hostOps1_4] : List (List (HloOp τ sig (Elt F)))), ∀ op ∈ ops,
    op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-! ## Which buffers the host lines write

Every host line writes exactly one buffer, its result's. The results of the lines before the launch and of the lines
after it are listed; an argument, or an array of the launch, is in neither list where that matters. -/

/-- The results of the 41 lines before the launch. -/
abbrev writtenBefore : List (Ref sig .tc) :=
  [
    main_v0, main_v1, main_v2, main_v3, main_v4, main_v5, main_v6, main_cst,
    main_v7, main_cst_0, main_v8, main_v9, main_v10, main_cst_1, main_v11, main_v12,
    main_v13, main_cst_2, main_call0_v0, main_call0_v1, main_v14, main_c, main_v15, main_v16,
    main_c_3, main_v17, main_v18, main_v19, main_v20, main_v21, main_c_4, main_v22,
    main_v23, main_c_5, main_v24, main_v25, main_v26, main_v27, main_v28, main_v29,
    main_v30 ]

/-- The results of the 79 lines after the launch. -/
abbrev writtenAfter : List (Ref sig .tc) :=
  [
    main_c_6, main_v32, main_v33, main_c_7, main_v34, main_v35, main_v36, main_v37,
    main_v38, main_v39, main_v40, main_v41, main_cst_8, main_v42, main_v43, main_v44,
    main_v45, main_v46, main_v47, main_call1_cst, main_call1_v0, main_v48, main_v49, main_c_9,
    main_v50, main_v51, main_c_10, main_v52, main_v53, main_v54, main_v55, main_v56,
    main_v57, main_v58, main_v59, main_cst_11, main_v60, main_v61, main_v62, main_v63,
    main_v64, main_v65, main_call2_cst, main_call2_v0, main_v66, main_v67, main_v68, main_v69,
    main_v70, main_c_12, main_v71, main_v72, main_c_13, main_v73, main_v74, main_v75,
    main_v76, main_v77, main_c_14, main_v78, main_v79, main_c_15, main_v80, main_v81,
    main_v82, main_v83, main_v84, main_v85, main_v86, main_v87, main_v88, main_v89,
    main_v90, main_cst_16, main_v91, main_v92, main_cst_17, main_v93, main_v94 ]

/-- A line whose one result is in a list writes inside that list. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem hostOps0_writes : (hostOps0 : List (HloOp τ sig (Elt F))).Forall fun op => op.writes ⊆ (writtenBefore.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact single_sub (by decide)
theorem hostOps0_1_writes : (hostOps0_1 : List (HloOp τ sig (Elt F))).Forall fun op => op.writes ⊆ (writtenBefore.map (Proc.devRef (τ := τ) .tc)).toFinset := by
  simp only [hostOps0_1, List.Forall, StableHlo.nullary_writes, StableHlo.unary_writes, StableHlo.binary_writes, StableHlo.ternary_writes, StableHlo.reshape_writes]
  repeat' apply And.intro
  all_goals exact single_sub (by decide)
theorem hostOps0_2_writes : (hostOps0_2 : List (HloOp τ sig (Elt F))).Forall fun op => op.writes ⊆ (writtenBefore.map (Proc.devRef (τ := τ) .tc)).toFinset := by
  simp only [hostOps0_2, List.Forall, StableHlo.nullary_writes, StableHlo.unary_writes, StableHlo.binary_writes, StableHlo.ternary_writes, StableHlo.reshape_writes]
  repeat' apply And.intro
  all_goals exact single_sub (by decide)
theorem hostOps1_writes : (hostOps1 : List (HloOp τ sig (Elt F))).Forall fun op => op.writes ⊆ (writtenAfter.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact single_sub (by decide)
theorem hostOps1_1_writes : (hostOps1_1 : List (HloOp τ sig (Elt F))).Forall fun op => op.writes ⊆ (writtenAfter.map (Proc.devRef (τ := τ) .tc)).toFinset := by
  simp only [hostOps1_1, List.Forall, StableHlo.nullary_writes, StableHlo.unary_writes, StableHlo.binary_writes, StableHlo.ternary_writes, StableHlo.reshape_writes]
  repeat' apply And.intro
  all_goals exact single_sub (by decide)
theorem hostOps1_2_writes : (hostOps1_2 : List (HloOp τ sig (Elt F))).Forall fun op => op.writes ⊆ (writtenAfter.map (Proc.devRef (τ := τ) .tc)).toFinset := by
  simp only [hostOps1_2, List.Forall, StableHlo.nullary_writes, StableHlo.unary_writes, StableHlo.binary_writes, StableHlo.ternary_writes, StableHlo.reshape_writes]
  repeat' apply And.intro
  all_goals exact single_sub (by decide)
theorem hostOps1_3_writes : (hostOps1_3 : List (HloOp τ sig (Elt F))).Forall fun op => op.writes ⊆ (writtenAfter.map (Proc.devRef (τ := τ) .tc)).toFinset := by
  simp only [hostOps1_3, List.Forall, StableHlo.nullary_writes, StableHlo.unary_writes, StableHlo.binary_writes, StableHlo.ternary_writes, StableHlo.reshape_writes]
  repeat' apply And.intro
  all_goals exact single_sub (by decide)
theorem hostOps1_4_writes : (hostOps1_4 : List (HloOp τ sig (Elt F))).Forall fun op => op.writes ⊆ (writtenAfter.map (Proc.devRef (τ := τ) .tc)).toFinset := by
  simp only [hostOps1_4, List.Forall, StableHlo.nullary_writes, StableHlo.unary_writes, StableHlo.binary_writes, StableHlo.ternary_writes, StableHlo.reshape_writes]
  repeat' apply And.intro
  all_goals exact single_sub (by decide)

/-- Every line before the launch writes inside `writtenBefore`. -/
theorem before_writes : (List.flatten [hostOps0, hostOps0_1, hostOps0_2] : List (HloOp τ sig (Elt F))).Forall
    fun op => op.writes ⊆ (writtenBefore.map (Proc.devRef (τ := τ) .tc)).toFinset :=
  forall_flatten fun ops hops => by
    simp only [List.mem_cons, List.mem_nil_iff, or_false] at hops
    rcases hops with rfl | rfl | rfl
    exacts [List.forall_iff_forall_mem.mp hostOps0_writes, List.forall_iff_forall_mem.mp hostOps0_1_writes,
      List.forall_iff_forall_mem.mp hostOps0_2_writes]

/-- Every line after the launch writes inside `writtenAfter`. -/
theorem after_writes_mem : ∀ ops ∈ ([hostOps1, hostOps1_1, hostOps1_2, hostOps1_3, hostOps1_4] : List (List (HloOp τ sig (Elt F)))), ∀ op ∈ ops,
    op.writes ⊆ (writtenAfter.map (Proc.devRef (τ := τ) .tc)).toFinset := by
  intro ops hops
  simp only [List.mem_cons, List.mem_nil_iff, or_false] at hops
  rcases hops with rfl | rfl | rfl | rfl | rfl
  exacts [List.forall_iff_forall_mem.mp hostOps1_writes, List.forall_iff_forall_mem.mp hostOps1_1_writes,
    List.forall_iff_forall_mem.mp hostOps1_2_writes, List.forall_iff_forall_mem.mp hostOps1_3_writes,
    List.forall_iff_forall_mem.mp hostOps1_4_writes]

theorem after_writes : (List.flatten [hostOps1, hostOps1_1, hostOps1_2, hostOps1_3, hostOps1_4] : List (HloOp τ sig (Elt F))).Forall
    fun op => op.writes ⊆ (writtenAfter.map (Proc.devRef (τ := τ) .tc)).toFinset :=
  forall_flatten after_writes_mem

/-- No line after the launch writes one of the launch's three arrays (the matrix `x`, the narrowed weights, the
    product): none of the three is the result of such a line. -/
theorem tail_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop w hmem
  obtain ⟨y, hy, he⟩ := List.mem_map.mp (List.mem_toFinset.mp (after_writes_mem ops hops op hop hmem))
  exact (by decide : ∀ w, Pipeline.arrRef spec0 w ∉ writtenAfter) w (Proc.devRef_injective _ he ▸ hy)

/-- A buffer that is no result of a line before the launch is found by the launch as the program started with it. -/
theorem entry_kept (c : Dev nD) (r : Ref sig .tc) (hr : r ∉ writtenBefore) : V m c r = m ((c : Thread nD τ).loc r) :=
  StableHlo.after_of_writes_sub _ _ before_writes hr

/-- A buffer that is neither an array of the launch nor a result of a line after it ends as the launch found it. -/
theorem exit_kept (dats : (p : Fin _) → (c : Dev nD) → Dat τ (Elt F) Unit ℕ (UR sig nD τ) ℕ (cfgs p) c) (c : Dev nD)
    (r : Ref sig .tc) (hr : r ∉ writtenAfter) (hr' : ∀ w, Pipeline.arrRef spec0 w ≠ r) :
    Pipeline.afterTail₀ cfgs dats 0 (V0 m) [hostOps1, hostOps1_1, hostOps1_2, hostOps1_3, hostOps1_4] c r = V m c r := by
  unfold Pipeline.afterTail₀
  rw [StableHlo.after_of_writes_sub _ _ after_writes hr, Pipeline.withArrays_of_ne _ c (V0 m c) _ r hr']

end Cert.KernelIdeal.Sides

end
-- ==== Proof.IdealStripFrame.lean ====
/-
  The kernel launch and the frame of the whole program.

  The launch walks the 32 strips of 256 rows of the 8192 x 8192 matrix `x`. At strip `t` its body reads the strip
  (rows 256 t … 256 t + 255, all 8192 columns) and the whole 8192 x 128 matrix of narrowed weights, and stores their
  product, accumulated from zero, as the strip's 256 x 128 block of the result; it also reads the result's buffer once
  and uses nothing of what it read. So after the body the result's buffer holds `strip xb wb`, one store covering it,
  whatever it held before; the two inputs' buffers are left as they were.
  From that: every execution of the program terminates without a fault, the product array ends block by block at what
  the strips wrote, every other buffer the launch does not own ends as the host lines after the launch leave it, and
  the ten arguments end as they started.
-/
import proofs.«157748_j10273561772323_2_alg».proof.Proof.IdealHostSides
import proofs.«157748_j10273561772323_2_alg».proof.Proof.Gen.KernelIdeal.Skeleton
import proofs.«157748_j10273561772323_2_alg».proof.Proof.Gen.KernelIdeal.Points
import Idealize.ShloMosaic.Lib.Ring
import Idealize.ShloMosaic.Lib.Tactic

set_option maxRecDepth 16384

noncomputable section

namespace Cert.KernelIdeal.Strips

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Sides

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window `w`'s block at strip `t`, cut from its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The strip of `x` is in its buffer when the body starts, at every strip. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weights, fetched once, are in their buffer when the body starts, at every strip: their block never moves. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

abbrev rectX : Rect S256x8192 := Rect.unit (s := S256x8192) ![0, 0] S256x8192.size inb_S256x8192_S256x8192_0_0
abbrev rectW : Rect S8192x128 := Rect.unit (s := S8192x128) ![0, 0] S8192x128.size inb_S8192x128_S8192x128_0_0
abbrev rectO : Rect S256x128 := Rect.unit (s := S256x128) ![0, 0] S256x128.size inb_S256x128_S256x128_0_0

/-- The result's buffer after the body, from the two input blocks: one store, of the whole 256 x 128 block, of the
    product of the strip (narrowed) by the weights, accumulated from zero. -/
def strip (xb : Vec F S256x8192 .f32) (wb : Vec F S8192x128 .bf16) : Vec F S256x128 .f32 :=
  View.canon [⟨rectO, k0_pay1 (View.ld xb rectX) (View.ld wb rectW)⟩]

/-- That one store covers the buffer. -/
theorem strip_cover (p0 : Vec F S256x128 .f32) (y : S256x128.Idx) :
    ∃ pc ∈ ([⟨rectO, p0⟩] : List (View.Piece (Elt F) S256x128 .f32)), y ∈ pc.1.set :=
  View.cover_of_tiled [⟨rectO, p0⟩] S256x128.size (by rfl) y

/-! ## The body -/

set_option maxHeartbeats 1000000 in
/-- The body, on whole buffers holding a strip `xb`, the weights `wb` and anything in the result's buffer, runs to
    its end leaving the inputs as they were and `strip xb wb` in the result's buffer. -/
theorem body_triple (c : Dev nD) (E : Set ℕ) (i : grid0.Coords)
    (arg1 : Memref sig .tc .vmem S256x8192 .f32) (harg1 : arg1.IsWhole) (arg2 : Memref sig .tc .vmem S8192x128 .bf16) (harg2 : arg2.IsWhole)
    (arg3 : Memref sig .tc .vmem S256x128 .f32) (harg3 : arg3.IsWhole)
    (xb : Vec F S256x8192 .f32) (wb : Vec F S8192x128 .bf16) (K : PUnit → sProp 𝕄) :
    iprop(owns (c : Thread nD τ) arg1 fullShare xb ∗ owns (c : Thread nD τ) arg2 fullShare wb ∗ (∃ d, owns (c : Thread nD τ) arg3 fullShare d)
        ∗ (iprop(owns (c : Thread nD τ) arg1 fullShare xb ∗ owns (c : Thread nD τ) arg2 fullShare wb ∗ owns (c : Thread nD τ) arg3 fullShare (strip xb wb)) -∗ K ⟨⟩))
      ⊢ wp frame (wpE (defs₀ (F := F)) Variants.none c none) E (cc0__matmul1_kernel i arg1 harg1 arg2 harg2 arg3 harg3) K := by
  simp only [cc0__matmul1_kernel_eq_skeleton]; unfold cc0__matmul1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (strip_cover _)

/-! ## The launch's proof data -/

/-- The arrays as the launch finds them; after the body at strip `t` each input's buffer at its block and the
    result's at the strip product; nothing else tracked, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => strip (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = strip (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d

/-! ## The body at a strip -/

/-- What the body is called with at strip `t`, the three windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  iintro ⟨HΦ, Ho, ⟨%d0, H0⟩, ⟨%d1, H1⟩, ⟨%d2, H2⟩⟩
  iapply (body_triple c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## The run -/

/-- The five stretches of host lines after the launch. -/
abbrev tailLines : List (List (HloOp τ sig (Elt F))) := [hostOps1, hostOps1_1, hostOps1_2, hostOps1_3, hostOps1_4]

set_option backward.isDefEq.respectTransparency.types false in
/-- Every execution of the program from `m` terminates without a fault; at the end each of the launch's arrays holds
    what its strips wrote back over what the launch found, and every other buffer that outlives the launch holds what
    the lines after the launch leave in it. -/
theorem run_main : θ_run defs (onTc (τ := τ) (main (F := F))) (s₀ m ρ)
    (Pipeline.FramePost cfgs (dats m) 0 (Pipeline.afterTail₀ cfgs (dats m) 0 (V0 m) tailLines)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailLines) (hsub := tail_sub) (hfresh := tail_fresh) (hkeep := tail_keeps)
    (hmain := hmain m Variants.none) (hA := A_eq m) (hΦ := fun _ _ => rfl)

/-- An argument that no window stages ends as it started. -/
theorem arg_kept (c : Dev nD) (r : Ref sig .tc) (h1 : r ∉ writtenBefore) (h2 : r ∉ writtenAfter) (h3 : ∀ w, Pipeline.arrRef spec0 w ≠ r) :
    Pipeline.afterTail₀ cfgs (dats m) 0 (V0 m) tailLines c r = m ((c : Thread nD τ).loc r) :=
  (exit_kept m (dats m) c r h2 h3).trans (entry_kept m c r h1)

/-- The program's run with its result named and its ten arguments unchanged. -/
theorem run_named : θ_run defs (onTc (τ := τ) (main (F := F))) ⟨m, fun _ => 0, ρ⟩ (fun r => ∀ c : Dev nD,
      r.2.mem ((c.tc : Thread nD τ).loc main_v94) = Pipeline.afterTail₀ cfgs (dats m) 0 (V0 m) tailLines c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c).2 main_v94 (Pipeline.mem_restRefs_of main_v94 (by decide) (by decide)),
     ((h c).1 0).trans (((dats m 0 c).arrAt_in 0 rfl _).trans ((A_eq m c 0).trans (entry_kept m c main_arg0 (by decide)))),
     ((h c).2 main_arg1 (Pipeline.mem_restRefs_of main_arg1 (by decide) (by decide))).trans (arg_kept m c main_arg1 (by decide) (by decide) (by decide)),
     ((h c).2 main_arg2 (Pipeline.mem_restRefs_of main_arg2 (by decide) (by decide))).trans (arg_kept m c main_arg2 (by decide) (by decide) (by decide)),
     ((h c).2 main_arg3 (Pipeline.mem_restRefs_of main_arg3 (by decide) (by decide))).trans (arg_kept m c main_arg3 (by decide) (by decide) (by decide)),
     ((h c).2 main_arg4 (Pipeline.mem_restRefs_of main_arg4 (by decide) (by decide))).trans (arg_kept m c main_arg4 (by decide) (by decide) (by decide)),
     ((h c).2 main_arg5 (Pipeline.mem_restRefs_of main_arg5 (by decide) (by decide))).trans (arg_kept m c main_arg5 (by decide) (by decide) (by decide)),
     ((h c).2 main_arg6 (Pipeline.mem_restRefs_of main_arg6 (by decide) (by decide))).trans (arg_kept m c main_arg6 (by decide) (by decide) (by decide)),
     ((h c).2 main_arg7 (Pipeline.mem_restRefs_of main_arg7 (by decide) (by decide))).trans (arg_kept m c main_arg7 (by decide) (by decide) (by decide)),
     ((h c).2 main_arg8 (Pipeline.mem_restRefs_of main_arg8 (by decide) (by decide))).trans (arg_kept m c main_arg8 (by decide) (by decide) (by decide)),
     ((h c).2 main_arg9 (Pipeline.mem_restRefs_of main_arg9 (by decide) (by decide))).trans (arg_kept m c main_arg9 (by decide) (by decide) (by decide))⟩)
    (run_main m ρ)

/-- The frame: the program runs to its end without a fault and its ten arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_named m ρ)

end Cert.KernelIdeal.Strips

end
-- ==== Proof.GcnTerms.lean ====
/-
  The graph convolution's pieces as functions of arrays.

  The edge list has two rows, sources and destinations, of 524288 edges; each row gets the 8192 self-loops
  0, 1, …, 8191 appended (`withLoops`). An index used to pick a row of an 8192-row table is first wrapped: a negative
  index has 8192 added (`wrapEdge`, `wrapPair`). The degree of a node is the number of edges, self-loop included, whose
  destination it is (`degree`: ones summed into zeros at the destinations); its normaliser is the inverse square root
  of the degree where the degree is positive and zero elsewhere (`invSqrtDegree`); the coefficient of an edge is the
  product of the normalisers of its two ends (`edgeCoef`). A layer (`gcnLayer128`, `gcnLayer64`) takes a node table
  already multiplied by the layer's weights, and for every edge adds the source's row times the edge's coefficient into
  the destination's row, starting from zeros; then adds the bias to every row and clamps at zero from below.
  The last stage projects the node table by the two halves of a 128 x 86 matrix, picks for every pair of nodes the
  first node's row of the first projection and the second node's row of the second, adds them (`splitHead`), adds the
  bias, and takes the logistic 1 / (1 + exp (−z)) (`logisticRows`).
  All of this is stated for any float instance: nothing here depends on what a float is.
-/
import proofs.«157748_j10273561772323_2_alg».proof.Proof.Gen.KernelIdeal

noncomputable section

namespace Cert.Gcn

open Idealize.ShloMosaic Cert.KernelIdeal Cert.KernelIdeal.Gen

variable {F : FTy → Type} [FloatOps F]

/-- An array of 32-bit integers of a shape, and one of 32-bit floats. -/
abbrev IArr (F : FTy → Type) (s : Shape) : Type := (⟨s, .i32⟩ : BufTy).Contents (Elt F)
abbrev FArr (F : FTy → Type) (s : Shape) : Type := (⟨s, .f32⟩ : BufTy).Contents (Elt F)

/-- The sources: row 0 of the edge list, as a vector. -/
def edgeRow0 (ei : IArr F S2x524288) : IArr F S524288 :=
  shapeCast S524288 (extractStridedSlice S1x524288 ![0, 0] ei slices_S2x524288_S1x524288_0_0) shapeCasts_S1x524288_S524288
/-- The destinations: row 1. -/
def edgeRow1 (ei : IArr F S2x524288) : IArr F S524288 :=
  shapeCast S524288 (extractStridedSlice S1x524288 ![1, 0] ei slices_S2x524288_S1x524288_1_0) shapeCasts_S1x524288_S524288

/-- A row of the edge list with the self-loops 0 … 8191 appended. -/
def withLoops (v : IArr F S524288) : IArr F S532480 :=
  concatenate S532480 0 [⟨S524288, v⟩, ⟨S8192, iotaInDim S8192 32 0⟩] concatenates_S524288_S8192_S532480_d0

/-- Node indices wrapped (a negative one has 8192 added) and stood up as a column of start indices. -/
def wrapEdge (v : IArr F S532480) : IArr F S532480x1 :=
  broadcastInDim S532480x1 ![0] bcast_S532480_S532480x1_0
    (select (cmpi .slt v (broadcastInDim S532480 ![] bcast_S_S532480 (constantI S_ 32 0#32)))
      (addi v (broadcastInDim S532480 ![] bcast_S_S532480 (constantI S_ 32 8192#32))) v)

/-- How many edges end at each node: ones added into zeros at the destinations. -/
def degree (d : IArr F S532480) : FArr F S8192 :=
  Host.scatterAdd scatter_S8192_S532480x1_S532480_n_0_0_1
    (broadcastInDim S8192 ![] bcast_S_S8192 (constant S_ .f32 0x00000000#32))
    (broadcastInDim S532480x1 ![0] bcast_S532480_S532480x1_0 d)
    (broadcastInDim S532480 ![] bcast_S_S532480 (constant S_ .f32 0x3F800000#32))

/-- The inverse square root of the degree where it is positive, zero elsewhere. -/
def invSqrtDegree (d : IArr F S532480) : FArr F S8192 :=
  select (cmpf .ogt (degree d) (broadcastInDim S8192 ![] bcast_S_S8192 (constant S_ .f32 0x00000000#32)))
    (Host.rsqrt (degree d))
    (broadcastInDim S8192 ![] bcast_S_S8192 (id (constant S_ .f32 0x00000000#32)))

/-- An edge's coefficient: its source's normaliser times its destination's. -/
def edgeCoef (s d : IArr F S532480) : FArr F S532480 :=
  mulf (Host.gather gather_S8192_S532480x1_S532480_n_0_n_n_0_1_1 (invSqrtDegree d) (wrapEdge s))
    (Host.gather gather_S8192_S532480x1_S532480_n_0_n_n_0_1_1 (invSqrtDegree d) (wrapEdge d))

/-- One layer on a 128-column node table: aggregate along the edges, add the bias, clamp at zero. -/
def gcnLayer128 (xw : FArr F S8192x128) (b : FArr F S128) (s d : IArr F S532480) (coef : FArr F S532480) : FArr F S8192x128 :=
  maximumf
    (addf
      (Host.scatterAdd scatter_S8192x128_S532480x1_S532480x128_1_0_0_1
        (broadcastInDim S8192x128 ![] bcast_S_S8192x128 (constant S_ .f32 0x00000000#32))
        (broadcastInDim S532480x1 ![0] bcast_S532480_S532480x1_0 d)
        (mulf (Host.gather gather_S8192x128_S532480x1_S532480x128_1_0_n_n_0_1_1128 xw (wrapEdge s))
          (broadcastInDim S532480x128 ![0, 1] bcast_S532480x1_S532480x128_0_1
            (broadcastInDim S532480x1 ![0] bcast_S532480_S532480x1_0 coef))))
      (broadcastInDim S8192x128 ![0, 1] bcast_S1x128_S8192x128_0_1 (broadcastInDim S1x128 ![1] bcast_S128_S1x128_1 b)))
    (broadcastInDim S8192x128 ![] bcast_S_S8192x128 (constant S_ .f32 0x00000000#32))

/-- The same layer on a 64-column node table. -/
def gcnLayer64 (xw : FArr F S8192x64) (b : FArr F S64) (s d : IArr F S532480) (coef : FArr F S532480) : FArr F S8192x64 :=
  maximumf
    (addf
      (Host.scatterAdd scatter_S8192x64_S532480x1_S532480x64_1_0_0_1
        (broadcastInDim S8192x64 ![] bcast_S_S8192x64 (constant S_ .f32 0x00000000#32))
        (broadcastInDim S532480x1 ![0] bcast_S532480_S532480x1_0 d)
        (mulf (Host.gather gather_S8192x64_S532480x1_S532480x64_1_0_n_n_0_1_164 xw (wrapEdge s))
          (broadcastInDim S532480x64 ![0, 1] bcast_S532480x1_S532480x64_0_1
            (broadcastInDim S532480x1 ![0] bcast_S532480_S532480x1_0 coef))))
      (broadcastInDim S8192x64 ![0, 1] bcast_S1x64_S8192x64_0_1 (broadcastInDim S1x64 ![1] bcast_S64_S1x64_1 b)))
    (broadcastInDim S8192x64 ![] bcast_S_S8192x64 (constant S_ .f32 0x00000000#32))

/-- The second layer's input: the first layer's output times the 128 x 64 weights. -/
def times64 (h : FArr F S8192x128) (w : FArr F S128x64) : FArr F S8192x64 :=
  Host.dotGeneral dot_S8192x128_S128x64_S8192x64_1_0_0_1_n_n none h w

/-- The node indices of the pairs, wrapped and stood up as a column. -/
def wrapPair (v : IArr F S262144) : IArr F S262144x1 :=
  broadcastInDim S262144x1 ![0] bcast_S262144_S262144x1_0
    (select (cmpi .slt v (broadcastInDim S262144 ![] bcast_S_S262144 (constantI S_ 32 0#32)))
      (addi v (broadcastInDim S262144 ![] bcast_S_S262144 (constantI S_ 32 8192#32))) v)

/-- The last bias, one copy per pair. -/
def biasRows (b : FArr F S86) : FArr F S262144x86 :=
  broadcastInDim S262144x86 ![0, 1] bcast_S1x86_S262144x86_0_1 (broadcastInDim S1x86 ![1] bcast_S86_S1x86_1 b)

/-- Project the node table by each half of the last weights, pick the pairs' rows, add. -/
def splitHead (h : FArr F S8192x64) (w : FArr F S128x86) (i1 i2 : IArr F S262144x1) : FArr F S262144x86 :=
  addf
    (Host.gather gather_S8192x86_S262144x1_S262144x86_1_0_n_n_0_1_186
      (Host.dotGeneral dot_S8192x64_S64x86_S8192x86_1_0_0_1_n_n none h (extractStridedSlice S64x86 ![0, 0] w slices_S128x86_S64x86_0_0)) i1)
    (Host.gather gather_S8192x86_S262144x1_S262144x86_1_0_n_n_0_1_186
      (Host.dotGeneral dot_S8192x64_S64x86_S8192x86_1_0_0_1_n_n none h (extractStridedSlice S64x86 ![64, 0] w slices_S128x86_S64x86_64_0)) i2)

/-- The logistic function, entry by entry: 1 / (1 + exp (−z)). -/
def logisticRows (z : FArr F S262144x86) : FArr F S262144x86 :=
  Host.divf (broadcastInDim S262144x86 ![] bcast_S_S262144x86 (constant S_ .f32 0x3F800000#32))
    (addf (broadcastInDim S262144x86 ![] bcast_S_S262144x86 (constant S_ .f32 0x3F800000#32)) (Host.exp (Host.negf z)))

end Cert.Gcn

end
-- ==== Proof.LibHostStretches.lean ====
/-
  Host lines run in stretches.

  The contents of a device's buffers after a list of host operations is a fold: each operation rewrites the buffer it
  writes and leaves the rest. So the contents after two stretches run one after the other are the second stretch's
  contents computed from the first stretch's, and a buffer that no operation of a stretch writes comes out of the
  stretch as it went in. With these a long program is read a stretch at a time: each stretch as a function of what it
  was handed, the stretches composed afterwards.
-/
import Idealize.ShloMosaic.Lib.StableHlo.Run

noncomputable section

namespace Idealize.ShloMosaic.StableHlo

variable {τ : Topo} {sig : RefSig} {Val : EltTy → Type}

/-- The contents after two stretches are the second's from the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every operation of each of two stretches holds of every operation of the two joined. -/
theorem forall_append {p : HloOp τ sig Val → Prop} {l₁ l₂ : List (HloOp τ sig Val)} (h₁ : l₁.Forall p) (h₂ : l₂.Forall p) :
    (l₁ ++ l₂).Forall p :=
  List.forall_iff_forall_mem.mpr fun x hx => by
    rcases List.mem_append.mp hx with h | h
    · exact List.forall_iff_forall_mem.mp h₁ x h
    · exact List.forall_iff_forall_mem.mp h₂ x h

end Idealize.ShloMosaic.StableHlo

end
-- ==== Proof.RefHostTerms.lean ====
/-
  The reference program as the graph convolution's pieces, and its run.

  The reference is host lines only, in three stages. The first multiplies the matrix by the first layer's weights,
  builds the edge lists, the degrees and the coefficients, and computes the first layer. The second builds the same
  graph data again from the same two rows of the edge list, and computes the second layer from the first. The third
  picks, for every pair, the two nodes' rows of the second layer, puts them side by side as one row of 128 entries,
  multiplies by the whole 128 x 86 matrix, adds the bias and takes the logistic. Each stage is read as a function of
  the contents it is handed, the stages are composed, and the program's run is stated with its result named that way.
-/
import proofs.«157748_j10273561772323_2_alg».proof.Proof.Gen.ReferenceIdeal
import proofs.«157748_j10273561772323_2_alg».proof.Proof.GcnTerms
import proofs.«157748_j10273561772323_2_alg».proof.Proof.LibHostStretches
import Idealize.ShloMosaic.Lib.StableHlo.Run

set_option maxRecDepth 16384

noncomputable section

namespace Cert.ReferenceIdeal.Terms

open Cert.ReferenceIdeal Cert.ReferenceIdeal.Gen Idealize.ShloMosaic Idealize.ShloMosaic.TcCoe Idealize.SL.Sem Idealize.ShloMosaic.StableHlo

variable {F : FTy → Type} [FloatOps F]

/-! ## The program's lines, in three stages -/

/-- The first stage: the product with the first weights, the graph data, the first layer (63 lines). -/
abbrev stage1 : List (HloOp τ sig (Elt F)) :=
  [ unary main_arg1 main_v0 ((extractStridedSlice S1x524288 ![0, 0] · slices_S2x524288_S1x524288_0_0) : (⟨S2x524288, .i32⟩ : BufTy).Contents (Elt F) → (⟨S1x524288, .i32⟩ : BufTy).Contents (Elt F)),
    reshape main_v0 main_v1 rfl shapeCasts_S1x524288_S524288,
    unary main_arg1 main_v2 ((extractStridedSlice S1x524288 ![1, 0] · slices_S2x524288_S1x524288_1_0) : (⟨S2x524288, .i32⟩ : BufTy).Contents (Elt F) → (⟨S1x524288, .i32⟩ : BufTy).Contents (Elt F)),
    reshape main_v2 main_v3 rfl shapeCasts_S1x524288_S524288,
    binary main_arg0 main_arg4 main_v4 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    nullary main_v5 (iotaInDim S8192 32 0),
    binary main_v1 main_v5 main_v6 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)),
    binary main_v3 main_v5 main_v7 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)),
    nullary main_cst (constant S_ .f32 0x3F800000#32),
    unary main_cst main_v8 (broadcastInDim S532480 ![] bcast_S_S532480 : (⟨S_, .f32⟩ : BufTy).Contents (Elt F) → (⟨S532480, .f32⟩ : BufTy).Contents (Elt F)),
    nullary main_cst_0 (constant S_ .f32 0x00000000#32),
    unary main_cst_0 main_v9 (broadcastInDim S8192 ![] bcast_S_S8192 : (⟨S_, .f32⟩ : BufTy).Contents (Elt F) → (⟨S8192, .f32⟩ : BufTy).Contents (Elt F)),
    unary main_v7 main_v10 (broadcastInDim S532480x1 ![0] bcast_S532480_S532480x1_0 : (⟨S532480, .i32⟩ : BufTy).Contents (Elt F) → (⟨S532480x1, .i32⟩ : BufTy).Contents (Elt F)),
    ternary main_v9 main_v10 main_v8 main_v11 ((fun x i u => Host.scatterAdd scatter_S8192_S532480x1_S532480_n_0_0_1 x i u) : (⟨S8192, .f32⟩ : BufTy).Contents (Elt F) → (⟨S532480x1, .i32⟩ : BufTy).Contents (Elt F) → (⟨S532480, .f32⟩ : BufTy).Contents (Elt F) → (⟨S8192, .f32⟩ : BufTy).Contents (Elt F)),
    nullary main_cst_1 (constant S_ .f32 0x00000000#32),
    unary main_cst_1 main_v12 (broadcastInDim S8192 ![] bcast_S_S8192 : (⟨S_, .f32⟩ : BufTy).Contents (Elt F) → (⟨S8192, .f32⟩ : BufTy).Contents (Elt F)),
    binary main_v11 main_v12 main_v13 (cmpf .ogt : (⟨S8192, .f32⟩ : BufTy).Contents (Elt F) → (⟨S8192, .f32⟩ : BufTy).Contents (Elt F) → (⟨S8192, .i1⟩ : BufTy).Contents (Elt F)),
    unary main_v11 main_v14 (Host.rsqrt : (⟨S8192, .f32⟩ : BufTy).Contents (Elt F) → (⟨S8192, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v13) (TRef.of (T := ⟨S8192, .f32⟩) main_v14) (TRef.of (T := ⟨S8192, .f32⟩) main_call0_v1) (TRef.of (T := ⟨S8192, .f32⟩) main_v15) select,
    nullary main_c (constantI S_ 32 0#32),
    unary main_c main_v16 (broadcastInDim S532480 ![] bcast_S_S532480 : (⟨S_, .i32⟩ : BufTy).Contents (Elt F) → (⟨S532480, .i32⟩ : BufTy).Contents (Elt F)),
    binary main_v6 main_v16 main_v17 (cmpi .slt : (⟨S532480, .i32⟩ : BufTy).Contents (Elt F) → (⟨S532480, .i32⟩ : BufTy).Contents (Elt F) → (⟨S532480, .i1⟩ : BufTy).Contents (Elt F)),
    nullary main_c_3 (constantI S_ 32 8192#32),
    unary main_c_3 main_v18 (broadcastInDim S532480 ![] bcast_S_S532480 : (⟨S_, .i32⟩ : BufTy).Contents (Elt F) → (⟨S532480, .i32⟩ : BufTy).Contents (Elt F)),
    binary main_v6 main_v18 main_v19 (addi : (⟨S532480, .i32⟩ : BufTy).Contents (Elt F) → (⟨S532480, .i32⟩ : BufTy).Contents (Elt F) → (⟨S532480, .i32⟩ : BufTy).Contents (Elt F)),
    ternary main_v17 main_v19 main_v6 main_v20 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v20 main_v21 (broadcastInDim S532480x1 ![0] bcast_S532480_S532480x1_0 : (⟨S532480, .i32⟩ : BufTy).Contents (Elt F) → (⟨S532480x1, .i32⟩ : BufTy).Contents (Elt F)),
    binary main_v15 main_v21 main_v22 ((fun x i => Host.gather gather_S8192_S532480x1_S532480_n_0_n_n_0_1_1 x i) : (⟨S8192, .f32⟩ : BufTy).Contents (Elt F) → (⟨S532480x1, .i32⟩ : BufTy).Contents (Elt F) → (⟨S532480, .f32⟩ : BufTy).Contents (Elt F)),
    nullary main_c_4 (constantI S_ 32 0#32),
    unary main_c_4 main_v23 (broadcastInDim S532480 ![] bcast_S_S532480 : (⟨S_, .i32⟩ : BufTy).Contents (Elt F) → (⟨S532480, .i32⟩ : BufTy).Contents (Elt F)),
    binary main_v7 main_v23 main_v24 (cmpi .slt : (⟨S532480, .i32⟩ : BufTy).Contents (Elt F) → (⟨S532480, .i32⟩ : BufTy).Contents (Elt F) → (⟨S532480, .i1⟩ : BufTy).Contents (Elt F)),
    nullary main_c_5 (constantI S_ 32 8192#32),
    unary main_c_5 main_v25 (broadcastInDim S532480 ![] bcast_S_S532480 : (⟨S_, .i32⟩ : BufTy).Contents (Elt F) → (⟨S532480, .i32⟩ : BufTy).Contents (Elt F)),
    binary main_v7 main_v25 main_v26 (addi : (⟨S532480, .i32⟩ : BufTy).Contents (Elt F) → (⟨S532480, .i32⟩ : BufTy).Contents (Elt F) → (⟨S532480, .i32⟩ : BufTy).Contents (Elt F)),
    ternary main_v24 main_v26 main_v7 main_v27 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v27 main_v28 (broadcastInDim S532480x1 ![0] bcast_S532480_S532480x1_0 : (⟨S532480, .i32⟩ : BufTy).Contents (Elt F) → (⟨S532480x1, .i32⟩ : BufTy).Contents (Elt F)),
    binary main_v15 main_v28 main_v29 ((fun x i => Host.gather gather_S8192_S532480x1_S532480_n_0_n_n_0_1_1 x i) : (⟨S8192, .f32⟩ : BufTy).Contents (Elt F) → (⟨S532480x1, .i32⟩ : BufTy).Contents (Elt F) → (⟨S532480, .f32⟩ : BufTy).Contents (Elt F)),
    binary main_v22 main_v29 main_v30 (mulf : (⟨S532480, .f32⟩ : BufTy).Contents (Elt F) → (⟨S532480, .f32⟩ : BufTy).Contents (Elt F) → (⟨S532480, .f32⟩ : BufTy).Contents (Elt F)),
    nullary main_c_6 (constantI S_ 32 0#32),
    unary main_c_6 main_v31 (broadcastInDim S532480 ![] bcast_S_S532480 : (⟨S_, .i32⟩ : BufTy).Contents (Elt F) → (⟨S532480, .i32⟩ : BufTy).Contents (Elt F)),
    binary main_v6 main_v31 main_v32 (cmpi .slt : (⟨S532480, .i32⟩ : BufTy).Contents (Elt F) → (⟨S532480, .i32⟩ : BufTy).Contents (Elt F) → (⟨S532480, .i1⟩ : BufTy).Contents (Elt F)),
    nullary main_c_7 (constantI S_ 32 8192#32),
    unary main_c_7 main_v33 (broadcastInDim S532480 ![] bcast_S_S532480 : (⟨S_, .i32⟩ : BufTy).Contents (Elt F) → (⟨S532480, .i32⟩ : BufTy).Contents (Elt F)),
    binary main_v6 main_v33 main_v34 (addi : (⟨S532480, .i32⟩ : BufTy).Contents (Elt F) → (⟨S532480, .i32⟩ : BufTy).Contents (Elt F) → (⟨S532480, .i32⟩ : BufTy).Contents (Elt F)),
    ternary main_v32 main_v34 main_v6 main_v35 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v35 main_v36 (broadcastInDim S532480x1 ![0] bcast_S532480_S532480x1_0 : (⟨S532480, .i32⟩ : BufTy).Contents (Elt F) → (⟨S532480x1, .i32⟩ : BufTy).Contents (Elt F)),
    binary main_v4 main_v36 main_v37 ((fun x i => Host.gather gather_S8192x128_S532480x1_S532480x128_1_0_n_n_0_1_1128 x i) : (⟨S8192x128, .f32⟩ : BufTy).Contents (Elt F) → (⟨S532480x1, .i32⟩ : BufTy).Contents (Elt F) → (⟨S532480x128, .f32⟩ : BufTy).Contents (Elt F)),
    unary main_v30 main_v38 (broadcastInDim S532480x1 ![0] bcast_S532480_S532480x1_0 : (⟨S532480, .f32⟩ : BufTy).Contents (Elt F) → (⟨S532480x1, .f32⟩ : BufTy).Contents (Elt F)),
    unary main_v38 main_v39 (broadcastInDim S532480x128 ![0, 1] bcast_S532480x1_S532480x128_0_1 : (⟨S532480x1, .f32⟩ : BufTy).Contents (Elt F) → (⟨S532480x128, .f32⟩ : BufTy).Contents (Elt F)),
    binary main_v37 main_v39 main_v40 (mulf : (⟨S532480x128, .f32⟩ : BufTy).Contents (Elt F) → (⟨S532480x128, .f32⟩ : BufTy).Contents (Elt F) → (⟨S532480x128, .f32⟩ : BufTy).Contents (Elt F)),
    nullary main_cst_8 (constant S_ .f32 0x00000000#32),
    unary main_cst_8 main_v41 (broadcastInDim S8192x128 ![] bcast_S_S8192x128 : (⟨S_, .f32⟩ : BufTy).Contents (Elt F) → (⟨S8192x128, .f32⟩ : BufTy).Contents (Elt F)),
    unary main_v7 main_v42 (broadcastInDim S532480x1 ![0] bcast_S532480_S532480x1_0 : (⟨S532480, .i32⟩ : BufTy).Contents (Elt F) → (⟨S532480x1, .i32⟩ : BufTy).Contents (Elt F)),
    ternary main_v41 main_v42 main_v40 main_v43 ((fun x i u => Host.scatterAdd scatter_S8192x128_S532480x1_S532480x128_1_0_0_1 x i u) : (⟨S8192x128, .f32⟩ : BufTy).Contents (Elt F) → (⟨S532480x1, .i32⟩ : BufTy).Contents (Elt F) → (⟨S532480x128, .f32⟩ : BufTy).Contents (Elt F) → (⟨S8192x128, .f32⟩ : BufTy).Contents (Elt F)),
    unary main_arg5 main_v44 (broadcastInDim S1x128 ![1] bcast_S128_S1x128_1 : (⟨S128, .f32⟩ : BufTy).Contents (Elt F) → (⟨S1x128, .f32⟩ : BufTy).Contents (Elt F)),
    unary main_v44 main_v45 (broadcastInDim S8192x128 ![0, 1] bcast_S1x128_S8192x128_0_1 : (⟨S1x128, .f32⟩ : BufTy).Contents (Elt F) → (⟨S8192x128, .f32⟩ : BufTy).Contents (Elt F)),
    binary main_v43 main_v45 main_v46 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x128, .f32⟩) main_call1_v0) (broadcastInDim S8192x128 ![] bcast_S_S8192x128),
    TRef.binary (TRef.of (T := ⟨S8192x128, .f32⟩) main_v46) (TRef.of (T := ⟨S8192x128, .f32⟩) main_call1_v0) (TRef.of (T := ⟨S8192x128, .f32⟩) main_v47) maximumf ]

/-- The second stage: the product with the second weights, the graph data again, the second layer (59 lines). -/
abbrev stage2 : List (HloOp τ sig (Elt F)) :=
  [ binary main_v47 main_arg6 main_v48 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    nullary main_v49 (iotaInDim S8192 32 0),
    binary main_v1 main_v49 main_v50 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)),
    binary main_v3 main_v49 main_v51 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)),
    nullary main_cst_9 (constant S_ .f32 0x3F800000#32),
    unary main_cst_9 main_v52 (broadcastInDim S532480 ![] bcast_S_S532480 : (⟨S_, .f32⟩ : BufTy).Contents (Elt F) → (⟨S532480, .f32⟩ : BufTy).Contents (Elt F)),
    nullary main_cst_10 (constant S_ .f32 0x00000000#32),
    unary main_cst_10 main_v53 (broadcastInDim S8192 ![] bcast_S_S8192 : (⟨S_, .f32⟩ : BufTy).Contents (Elt F) → (⟨S8192, .f32⟩ : BufTy).Contents (Elt F)),
    unary main_v51 main_v54 (broadcastInDim S532480x1 ![0] bcast_S532480_S532480x1_0 : (⟨S532480, .i32⟩ : BufTy).Contents (Elt F) → (⟨S532480x1, .i32⟩ : BufTy).Contents (Elt F)),
    ternary main_v53 main_v54 main_v52 main_v55 ((fun x i u => Host.scatterAdd scatter_S8192_S532480x1_S532480_n_0_0_1 x i u) : (⟨S8192, .f32⟩ : BufTy).Contents (Elt F) → (⟨S532480x1, .i32⟩ : BufTy).Contents (Elt F) → (⟨S532480, .f32⟩ : BufTy).Contents (Elt F) → (⟨S8192, .f32⟩ : BufTy).Contents (Elt F)),
    nullary main_cst_11 (constant S_ .f32 0x00000000#32),
    unary main_cst_11 main_v56 (broadcastInDim S8192 ![] bcast_S_S8192 : (⟨S_, .f32⟩ : BufTy).Contents (Elt F) → (⟨S8192, .f32⟩ : BufTy).Contents (Elt F)),
    binary main_v55 main_v56 main_v57 (cmpf .ogt : (⟨S8192, .f32⟩ : BufTy).Contents (Elt F) → (⟨S8192, .f32⟩ : BufTy).Contents (Elt F) → (⟨S8192, .i1⟩ : BufTy).Contents (Elt F)),
    unary main_v55 main_v58 (Host.rsqrt : (⟨S8192, .f32⟩ : BufTy).Contents (Elt F) → (⟨S8192, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S8192, .f32⟩) main_call2_v1) (broadcastInDim S8192 ![] bcast_S_S8192),
    TRef.ternary (TRef.of (T := ⟨S8192, .i1⟩) main_v57) (TRef.of (T := ⟨S8192, .f32⟩) main_v58) (TRef.of (T := ⟨S8192, .f32⟩) main_call2_v1) (TRef.of (T := ⟨S8192, .f32⟩) main_v59) select,
    nullary main_c_13 (constantI S_ 32 0#32),
    unary main_c_13 main_v60 (broadcastInDim S532480 ![] bcast_S_S532480 : (⟨S_, .i32⟩ : BufTy).Contents (Elt F) → (⟨S532480, .i32⟩ : BufTy).Contents (Elt F)),
    binary main_v50 main_v60 main_v61 (cmpi .slt : (⟨S532480, .i32⟩ : BufTy).Contents (Elt F) → (⟨S532480, .i32⟩ : BufTy).Contents (Elt F) → (⟨S532480, .i1⟩ : BufTy).Contents (Elt F)),
    nullary main_c_14 (constantI S_ 32 8192#32),
    unary main_c_14 main_v62 (broadcastInDim S532480 ![] bcast_S_S532480 : (⟨S_, .i32⟩ : BufTy).Contents (Elt F) → (⟨S532480, .i32⟩ : BufTy).Contents (Elt F)),
    binary main_v50 main_v62 main_v63 (addi : (⟨S532480, .i32⟩ : BufTy).Contents (Elt F) → (⟨S532480, .i32⟩ : BufTy).Contents (Elt F) → (⟨S532480, .i32⟩ : BufTy).Contents (Elt F)),
    ternary main_v61 main_v63 main_v50 main_v64 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v64 main_v65 (broadcastInDim S532480x1 ![0] bcast_S532480_S532480x1_0 : (⟨S532480, .i32⟩ : BufTy).Contents (Elt F) → (⟨S532480x1, .i32⟩ : BufTy).Contents (Elt F)),
    binary main_v59 main_v65 main_v66 ((fun x i => Host.gather gather_S8192_S532480x1_S532480_n_0_n_n_0_1_1 x i) : (⟨S8192, .f32⟩ : BufTy).Contents (Elt F) → (⟨S532480x1, .i32⟩ : BufTy).Contents (Elt F) → (⟨S532480, .f32⟩ : BufTy).Contents (Elt F)),
    nullary main_c_15 (constantI S_ 32 0#32),
    unary main_c_15 main_v67 (broadcastInDim S532480 ![] bcast_S_S532480 : (⟨S_, .i32⟩ : BufTy).Contents (Elt F) → (⟨S532480, .i32⟩ : BufTy).Contents (Elt F)),
    binary main_v51 main_v67 main_v68 (cmpi .slt : (⟨S532480, .i32⟩ : BufTy).Contents (Elt F) → (⟨S532480, .i32⟩ : BufTy).Contents (Elt F) → (⟨S532480, .i1⟩ : BufTy).Contents (Elt F)),
    nullary main_c_16 (constantI S_ 32 8192#32),
    unary main_c_16 main_v69 (broadcastInDim S532480 ![] bcast_S_S532480 : (⟨S_, .i32⟩ : BufTy).Contents (Elt F) → (⟨S532480, .i32⟩ : BufTy).Contents (Elt F)),
    binary main_v51 main_v69 main_v70 (addi : (⟨S532480, .i32⟩ : BufTy).Contents (Elt F) → (⟨S532480, .i32⟩ : BufTy).Contents (Elt F) → (⟨S532480, .i32⟩ : BufTy).Contents (Elt F)),
    ternary main_v68 main_v70 main_v51 main_v71 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v71 main_v72 (broadcastInDim S532480x1 ![0] bcast_S532480_S532480x1_0 : (⟨S532480, .i32⟩ : BufTy).Contents (Elt F) → (⟨S532480x1, .i32⟩ : BufTy).Contents (Elt F)),
    binary main_v59 main_v72 main_v73 ((fun x i => Host.gather gather_S8192_S532480x1_S532480_n_0_n_n_0_1_1 x i) : (⟨S8192, .f32⟩ : BufTy).Contents (Elt F) → (⟨S532480x1, .i32⟩ : BufTy).Contents (Elt F) → (⟨S532480, .f32⟩ : BufTy).Contents (Elt F)),
    binary main_v66 main_v73 main_v74 (mulf : (⟨S532480, .f32⟩ : BufTy).Contents (Elt F) → (⟨S532480, .f32⟩ : BufTy).Contents (Elt F) → (⟨S532480, .f32⟩ : BufTy).Contents (Elt F)),
    nullary main_c_17 (constantI S_ 32 0#32),
    unary main_c_17 main_v75 (broadcastInDim S532480 ![] bcast_S_S532480 : (⟨S_, .i32⟩ : BufTy).Contents (Elt F) → (⟨S532480, .i32⟩ : BufTy).Contents (Elt F)),
    binary main_v50 main_v75 main_v76 (cmpi .slt : (⟨S532480, .i32⟩ : BufTy).Contents (Elt F) → (⟨S532480, .i32⟩ : BufTy).Contents (Elt F) → (⟨S532480, .i1⟩ : BufTy).Contents (Elt F)),
    nullary main_c_18 (constantI S_ 32 8192#32),
    unary main_c_18 main_v77 (broadcastInDim S532480 ![] bcast_S_S532480 : (⟨S_, .i32⟩ : BufTy).Contents (Elt F) → (⟨S532480, .i32⟩ : BufTy).Contents (Elt F)),
    binary main_v50 main_v77 main_v78 (addi : (⟨S532480, .i32⟩ : BufTy).Contents (Elt F) → (⟨S532480, .i32⟩ : BufTy).Contents (Elt F) → (⟨S532480, .i32⟩ : BufTy).Contents (Elt F)),
    ternary main_v76 main_v78 main_v50 main_v79 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v79 main_v80 (broadcastInDim S532480x1 ![0] bcast_S532480_S532480x1_0 : (⟨S532480, .i32⟩ : BufTy).Contents (Elt F) → (⟨S532480x1, .i32⟩ : BufTy).Contents (Elt F)),
    binary main_v48 main_v80 main_v81 ((fun x i => Host.gather gather_S8192x64_S532480x1_S532480x64_1_0_n_n_0_1_164 x i) : (⟨S8192x64, .f32⟩ : BufTy).Contents (Elt F) → (⟨S532480x1, .i32⟩ : BufTy).Contents (Elt F) → (⟨S532480x64, .f32⟩ : BufTy).Contents (Elt F)),
    unary main_v74 main_v82 (broadcastInDim S532480x1 ![0] bcast_S532480_S532480x1_0 : (⟨S532480, .f32⟩ : BufTy).Contents (Elt F) → (⟨S532480x1, .f32⟩ : BufTy).Contents (Elt F)),
    unary main_v82 main_v83 (broadcastInDim S532480x64 ![0, 1] bcast_S532480x1_S532480x64_0_1 : (⟨S532480x1, .f32⟩ : BufTy).Contents (Elt F) → (⟨S532480x64, .f32⟩ : BufTy).Contents (Elt F)),
    binary main_v81 main_v83 main_v84 (mulf : (⟨S532480x64, .f32⟩ : BufTy).Contents (Elt F) → (⟨S532480x64, .f32⟩ : BufTy).Contents (Elt F) → (⟨S532480x64, .f32⟩ : BufTy).Contents (Elt F)),
    nullary main_cst_19 (constant S_ .f32 0x00000000#32),
    unary main_cst_19 main_v85 (broadcastInDim S8192x64 ![] bcast_S_S8192x64 : (⟨S_, .f32⟩ : BufTy).Contents (Elt F) → (⟨S8192x64, .f32⟩ : BufTy).Contents (Elt F)),
    unary main_v51 main_v86 (broadcastInDim S532480x1 ![0] bcast_S532480_S532480x1_0 : (⟨S532480, .i32⟩ : BufTy).Contents (Elt F) → (⟨S532480x1, .i32⟩ : BufTy).Contents (Elt F)),
    ternary main_v85 main_v86 main_v84 main_v87 ((fun x i u => Host.scatterAdd scatter_S8192x64_S532480x1_S532480x64_1_0_0_1 x i u) : (⟨S8192x64, .f32⟩ : BufTy).Contents (Elt F) → (⟨S532480x1, .i32⟩ : BufTy).Contents (Elt F) → (⟨S532480x64, .f32⟩ : BufTy).Contents (Elt F) → (⟨S8192x64, .f32⟩ : BufTy).Contents (Elt F)),
    unary main_arg7 main_v88 (broadcastInDim S1x64 ![1] bcast_S64_S1x64_1 : (⟨S64, .f32⟩ : BufTy).Contents (Elt F) → (⟨S1x64, .f32⟩ : BufTy).Contents (Elt F)),
    unary main_v88 main_v89 (broadcastInDim S8192x64 ![0, 1] bcast_S1x64_S8192x64_0_1 : (⟨S1x64, .f32⟩ : BufTy).Contents (Elt F) → (⟨S8192x64, .f32⟩ : BufTy).Contents (Elt F)),
    binary main_v87 main_v89 main_v90 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8192x64, .f32⟩) main_call3_v0) (broadcastInDim S8192x64 ![] bcast_S_S8192x64),
    TRef.binary (TRef.of (T := ⟨S8192x64, .f32⟩) main_v90) (TRef.of (T := ⟨S8192x64, .f32⟩) main_call3_v0) (TRef.of (T := ⟨S8192x64, .f32⟩) main_v91) maximumf ]

/-- The third stage: the pairs' rows side by side, the last product, the bias, the logistic (31 lines). -/
abbrev stage3 : List (HloOp τ sig (Elt F)) :=
  [ nullary main_c_20 (constantI S_ 32 0#32),
    unary main_c_20 main_v92 (broadcastInDim S262144 ![] bcast_S_S262144 : (⟨S_, .i32⟩ : BufTy).Contents (Elt F) → (⟨S262144, .i32⟩ : BufTy).Contents (Elt F)),
    binary main_arg2 main_v92 main_v93 (cmpi .slt : (⟨S262144, .i32⟩ : BufTy).Contents (Elt F) → (⟨S262144, .i32⟩ : BufTy).Contents (Elt F) → (⟨S262144, .i1⟩ : BufTy).Contents (Elt F)),
    nullary main_c_21 (constantI S_ 32 8192#32),
    unary main_c_21 main_v94 (broadcastInDim S262144 ![] bcast_S_S262144 : (⟨S_, .i32⟩ : BufTy).Contents (Elt F) → (⟨S262144, .i32⟩ : BufTy).Contents (Elt F)),
    binary main_arg2 main_v94 main_v95 (addi : (⟨S262144, .i32⟩ : BufTy).Contents (Elt F) → (⟨S262144, .i32⟩ : BufTy).Contents (Elt F) → (⟨S262144, .i32⟩ : BufTy).Contents (Elt F)),
    ternary main_v93 main_v95 main_arg2 main_v96 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v96 main_v97 (broadcastInDim S262144x1 ![0] bcast_S262144_S262144x1_0 : (⟨S262144, .i32⟩ : BufTy).Contents (Elt F) → (⟨S262144x1, .i32⟩ : BufTy).Contents (Elt F)),
    binary main_v91 main_v97 main_v98 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    nullary main_c_22 (constantI S_ 32 0#32),
    unary main_c_22 main_v99 (broadcastInDim S262144 ![] bcast_S_S262144 : (⟨S_, .i32⟩ : BufTy).Contents (Elt F) → (⟨S262144, .i32⟩ : BufTy).Contents (Elt F)),
    binary main_arg3 main_v99 main_v100 (cmpi .slt : (⟨S262144, .i32⟩ : BufTy).Contents (Elt F) → (⟨S262144, .i32⟩ : BufTy).Contents (Elt F) → (⟨S262144, .i1⟩ : BufTy).Contents (Elt F)),
    nullary main_c_23 (constantI S_ 32 8192#32),
    unary main_c_23 main_v101 (broadcastInDim S262144 ![] bcast_S_S262144 : (⟨S_, .i32⟩ : BufTy).Contents (Elt F) → (⟨S262144, .i32⟩ : BufTy).Contents (Elt F)),
    binary main_arg3 main_v101 main_v102 (addi : (⟨S262144, .i32⟩ : BufTy).Contents (Elt F) → (⟨S262144, .i32⟩ : BufTy).Contents (Elt F) → (⟨S262144, .i32⟩ : BufTy).Contents (Elt F)),
    ternary main_v100 main_v102 main_arg3 main_v103 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v103 main_v104 (broadcastInDim S262144x1 ![0] bcast_S262144_S262144x1_0 : (⟨S262144, .i32⟩ : BufTy).Contents (Elt F) → (⟨S262144x1, .i32⟩ : BufTy).Contents (Elt F)),
    binary main_v91 main_v104 main_v105 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    binary main_v98 main_v105 main_v106 ((fun a b => concatenate S262144x128 1 [⟨S262144x64, a⟩, ⟨S262144x64, b⟩] concatenates_S262144x64_S262144x64_S262144x128_d1) : (⟨S262144x64, .f32⟩ : BufTy).Contents (Elt F) → (⟨S262144x64, .f32⟩ : BufTy).Contents (Elt F) → (⟨S262144x128, .f32⟩ : BufTy).Contents (Elt F)),
    binary main_v106 main_arg8 main_v107 ((fun l r => Host.dotGeneral dot_S262144x128_S128x86_S262144x86_1_0_0_1_n_n none l r) : (⟨S262144x128, .f32⟩ : BufTy).Contents (Elt F) → (⟨S128x86, .f32⟩ : BufTy).Contents (Elt F) → (⟨S262144x86, .f32⟩ : BufTy).Contents (Elt F)),
    unary main_arg9 main_v108 (broadcastInDim S1x86 ![1] bcast_S86_S1x86_1 : (⟨S86, .f32⟩ : BufTy).Contents (Elt F) → (⟨S1x86, .f32⟩ : BufTy).Contents (Elt F)),
    unary main_v108 main_v109 (broadcastInDim S262144x86 ![0, 1] bcast_S1x86_S262144x86_0_1 : (⟨S1x86, .f32⟩ : BufTy).Contents (Elt F) → (⟨S262144x86, .f32⟩ : BufTy).Contents (Elt F)),
    binary main_v107 main_v109 main_v110 (addf : (⟨S262144x86, .f32⟩ : BufTy).Contents (Elt F) → (⟨S262144x86, .f32⟩ : BufTy).Contents (Elt F) → (⟨S262144x86, .f32⟩ : BufTy).Contents (Elt F)),
    unary main_v110 main_v111 (Host.negf : (⟨S262144x86, .f32⟩ : BufTy).Contents (Elt F) → (⟨S262144x86, .f32⟩ : BufTy).Contents (Elt F)),
    unary main_v111 main_v112 (Host.exp : (⟨S262144x86, .f32⟩ : BufTy).Contents (Elt F) → (⟨S262144x86, .f32⟩ : BufTy).Contents (Elt F)),
    nullary main_cst_24 (constant S_ .f32 0x3F800000#32),
    unary main_cst_24 main_v113 (broadcastInDim S262144x86 ![] bcast_S_S262144x86 : (⟨S_, .f32⟩ : BufTy).Contents (Elt F) → (⟨S262144x86, .f32⟩ : BufTy).Contents (Elt F)),
    binary main_v113 main_v112 main_v114 (addf : (⟨S262144x86, .f32⟩ : BufTy).Contents (Elt F) → (⟨S262144x86, .f32⟩ : BufTy).Contents (Elt F) → (⟨S262144x86, .f32⟩ : BufTy).Contents (Elt F)),
    nullary main_cst_25 (constant S_ .f32 0x3F800000#32),
    unary main_cst_25 main_v115 (broadcastInDim S262144x86 ![] bcast_S_S262144x86 : (⟨S_, .f32⟩ : BufTy).Contents (Elt F) → (⟨S262144x86, .f32⟩ : BufTy).Contents (Elt F)),
    binary main_v115 main_v114 main_v116 (Host.divf : (⟨S262144x86, .f32⟩ : BufTy).Contents (Elt F) → (⟨S262144x86, .f32⟩ : BufTy).Contents (Elt F) → (⟨S262144x86, .f32⟩ : BufTy).Contents (Elt F)) ]

/-- The whole program. -/
abbrev ops : List (HloOp τ sig (Elt F)) := stage1 ++ (stage2 ++ stage3)

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem stage1_sub : (stage1 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem stage2_sub : (stage2 : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem stage3_sub : (stage3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem ops_sub : (ops : List (HloOp τ sig (Elt F))).Forall fun op => op.bufs ⊆ tcRefs τ sig :=
  forall_append stage1_sub (forall_append stage2_sub stage3_sub)

theorem stage1_fresh : (stage1 : List (HloOp τ sig (Elt F))).Forall fun op => op.fresh = ∅ := by
  simp only [List.Forall]; repeat' constructor
theorem stage2_fresh : (stage2 : List (HloOp τ sig (Elt F))).Forall fun op => op.fresh = ∅ := by
  simp only [List.Forall]; repeat' constructor
theorem stage3_fresh : (stage3 : List (HloOp τ sig (Elt F))).Forall fun op => op.fresh = ∅ := by
  simp only [List.Forall]; repeat' constructor
theorem ops_fresh : ∀ op ∈ (ops : List (HloOp τ sig (Elt F))), op.fresh = ∅ :=
  List.forall_iff_forall_mem.mp (forall_append stage1_fresh (forall_append stage2_fresh stage3_fresh))

/-! ## Which buffers the lines write -/

/-- The results of the 153 lines: every buffer but the ten arguments. -/
abbrev written : List (Ref sig .tc) :=
  [
    main_v0, main_v1, main_v2, main_v3, main_v4, main_v5, main_v6, main_v7,
    main_cst, main_v8, main_cst_0, main_v9, main_v10, main_v11, main_cst_1, main_v12,
    main_v13, main_v14, main_cst_2, main_call0_v0, main_call0_v1, main_v15, main_c, main_v16,
    main_v17, main_c_3, main_v18, main_v19, main_v20, main_v21, main_v22, main_c_4,
    main_v23, main_v24, main_c_5, main_v25, main_v26, main_v27, main_v28, main_v29,
    main_v30, main_c_6, main_v31, main_v32, main_c_7, main_v33, main_v34, main_v35,
    main_v36, main_v37, main_v38, main_v39, main_v40, main_cst_8, main_v41, main_v42,
    main_v43, main_v44, main_v45, main_v46, main_call1_cst, main_call1_v0, main_v47, main_v48,
    main_v49, main_v50, main_v51, main_cst_9, main_v52, main_cst_10, main_v53, main_v54,
    main_v55, main_cst_11, main_v56, main_v57, main_v58, main_cst_12, main_call2_v0, main_call2_v1,
    main_v59, main_c_13, main_v60, main_v61, main_c_14, main_v62, main_v63, main_v64,
    main_v65, main_v66, main_c_15, main_v67, main_v68, main_c_16, main_v69, main_v70,
    main_v71, main_v72, main_v73, main_v74, main_c_17, main_v75, main_v76, main_c_18,
    main_v77, main_v78, main_v79, main_v80, main_v81, main_v82, main_v83, main_v84,
    main_cst_19, main_v85, main_v86, main_v87, main_v88, main_v89, main_v90, main_call3_cst,
    main_call3_v0, main_v91, main_c_20, main_v92, main_v93, main_c_21, main_v94, main_v95,
    main_v96, main_v97, main_v98, main_c_22, main_v99, main_v100, main_c_23, main_v101,
    main_v102, main_v103, main_v104, main_v105, main_v106, main_v107, main_v108, main_v109,
    main_v110, main_v111, main_v112, main_cst_24, main_v113, main_v114, main_cst_25, main_v115,
    main_v116 ]

theorem single_sub {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map_of_mem h))

theorem stage1_writes : (stage1 : List (HloOp τ sig (Elt F))).Forall fun op => op.writes ⊆ (written.map (Proc.devRef (τ := τ) .tc)).toFinset := by
  simp only [stage1, List.Forall, nullary_writes, unary_writes, binary_writes, ternary_writes, reshape_writes]
  repeat' apply And.intro
  all_goals exact single_sub (by decide)
theorem stage2_writes : (stage2 : List (HloOp τ sig (Elt F))).Forall fun op => op.writes ⊆ (written.map (Proc.devRef (τ := τ) .tc)).toFinset := by
  simp only [stage2, List.Forall, nullary_writes, unary_writes, binary_writes, ternary_writes, reshape_writes]
  repeat' apply And.intro
  all_goals exact single_sub (by decide)
theorem stage3_writes : (stage3 : List (HloOp τ sig (Elt F))).Forall fun op => op.writes ⊆ (written.map (Proc.devRef (τ := τ) .tc)).toFinset := by
  simp only [stage3, List.Forall, nullary_writes, unary_writes, binary_writes, ternary_writes, reshape_writes]
  repeat' apply And.intro
  all_goals exact single_sub (by decide)
theorem ops_writes : (ops : List (HloOp τ sig (Elt F))).Forall fun op => op.writes ⊆ (written.map (Proc.devRef (τ := τ) .tc)).toFinset :=
  forall_append stage1_writes (forall_append stage2_writes stage3_writes)

/-- An argument passes through a stage. -/
theorem through1 (W : Valuation τ sig (Elt F)) (r : Ref sig .tc) (hr : r ∉ written) :
    after stage1 W (Proc.devRef .tc r) = W (Proc.devRef .tc r) := after_of_writes_sub _ _ stage1_writes hr
theorem through2 (W : Valuation τ sig (Elt F)) (r : Ref sig .tc) (hr : r ∉ written) :
    after stage2 W (Proc.devRef .tc r) = W (Proc.devRef .tc r) := after_of_writes_sub _ _ stage2_writes hr
theorem through_all (W : Valuation τ sig (Elt F)) (r : Ref sig .tc) (hr : r ∉ written) :
    after ops W (Proc.devRef .tc r) = W (Proc.devRef .tc r) := after_of_writes_sub _ _ ops_writes hr

/-! ## The stages -/

/-- The pairs' rows side by side, times the whole last matrix. -/
def joinedHead (h : Cert.Gcn.FArr F Cert.KernelIdeal.S8192x64) (w : Cert.Gcn.FArr F Cert.KernelIdeal.S128x86) (i1 i2 : Cert.Gcn.IArr F Cert.KernelIdeal.S262144x1) :
    Cert.Gcn.FArr F Cert.KernelIdeal.S262144x86 :=
  Host.dotGeneral dot_S262144x128_S128x86_S262144x86_1_0_0_1_n_n none
    (concatenate S262144x128 1
      [⟨S262144x64, Host.gather gather_S8192x64_S262144x1_S262144x64_1_0_n_n_0_1_164 h i1⟩,
       ⟨S262144x64, Host.gather gather_S8192x64_S262144x1_S262144x64_1_0_n_n_0_1_164 h i2⟩]
      concatenates_S262144x64_S262144x64_S262144x128_d1) w

/-- The matrix times the first layer's weights, as the host computes it. -/
def times128 (x : Cert.Gcn.FArr F S8192x8192) (w : Cert.Gcn.FArr F Cert.KernelIdeal.S8192x128) : Cert.Gcn.FArr F Cert.KernelIdeal.S8192x128 :=
  Host.dotGeneral dot_S8192x8192_S8192x128_S8192x128_1_0_0_1_n_n none x w

theorem stage1_row0 (W : Valuation τ sig (Elt F)) :
    (after stage1 W (Proc.devRef .tc main_v1) : Cert.Gcn.IArr F Cert.KernelIdeal.S524288) = Cert.Gcn.edgeRow0 (W (Proc.devRef .tc main_arg1)) := by
  simp only [stage1]
  after_results_simp
  rfl

theorem stage1_row1 (W : Valuation τ sig (Elt F)) :
    (after stage1 W (Proc.devRef .tc main_v3) : Cert.Gcn.IArr F Cert.KernelIdeal.S524288) = Cert.Gcn.edgeRow1 (W (Proc.devRef .tc main_arg1)) := by
  simp only [stage1]
  after_results_simp
  rfl

/-- The first layer. -/
theorem stage1_layer (W : Valuation τ sig (Elt F)) :
    (after stage1 W (Proc.devRef .tc main_v47) : Cert.Gcn.FArr F Cert.KernelIdeal.S8192x128)
      = Cert.Gcn.gcnLayer128 (times128 (W (Proc.devRef .tc main_arg0)) (W (Proc.devRef .tc main_arg4))) (W (Proc.devRef .tc main_arg5))
          (Cert.Gcn.withLoops (Cert.Gcn.edgeRow0 (W (Proc.devRef .tc main_arg1)))) (Cert.Gcn.withLoops (Cert.Gcn.edgeRow1 (W (Proc.devRef .tc main_arg1)))) (Cert.Gcn.edgeCoef (Cert.Gcn.withLoops (Cert.Gcn.edgeRow0 (W (Proc.devRef .tc main_arg1)))) (Cert.Gcn.withLoops (Cert.Gcn.edgeRow1 (W (Proc.devRef .tc main_arg1))))) := by
  simp only [stage1]
  after_results_simp
  rfl

/-- The second layer, from the first and the two rows of the edge list. -/
theorem stage2_layer (W : Valuation τ sig (Elt F)) :
    (after stage2 W (Proc.devRef .tc main_v91) : Cert.Gcn.FArr F Cert.KernelIdeal.S8192x64)
      = Cert.Gcn.gcnLayer64 (Cert.Gcn.times64 (W (Proc.devRef .tc main_v47)) (W (Proc.devRef .tc main_arg6))) (W (Proc.devRef .tc main_arg7))
          (Cert.Gcn.withLoops (W (Proc.devRef .tc main_v1))) (Cert.Gcn.withLoops (W (Proc.devRef .tc main_v3)))
          (Cert.Gcn.edgeCoef (Cert.Gcn.withLoops (W (Proc.devRef .tc main_v1))) (Cert.Gcn.withLoops (W (Proc.devRef .tc main_v3)))) := by
  simp only [stage2]
  after_results_simp
  rfl

/-- The pairs' stage, from the second layer. -/
theorem stage3_pairs (W : Valuation τ sig (Elt F)) :
    (after stage3 W (Proc.devRef .tc main_v116) : Cert.Gcn.FArr F Cert.KernelIdeal.S262144x86)
      = Cert.Gcn.logisticRows (addf
          (joinedHead (W (Proc.devRef .tc main_v91)) (W (Proc.devRef .tc main_arg8)) (Cert.Gcn.wrapPair (W (Proc.devRef .tc main_arg2))) (Cert.Gcn.wrapPair (W (Proc.devRef .tc main_arg3))))
          (Cert.Gcn.biasRows (W (Proc.devRef .tc main_arg9)))) := by
  simp only [stage3]
  after_results_simp
  rfl

/-! ## The whole program -/

/-- The reference's result as a function of its arguments. -/
def result (x : Cert.Gcn.FArr F S8192x8192) (ei : Cert.Gcn.IArr F Cert.KernelIdeal.S2x524288) (d1 d2 : Cert.Gcn.IArr F Cert.KernelIdeal.S262144)
    (w1 : Cert.Gcn.FArr F Cert.KernelIdeal.S8192x128) (b1 : Cert.Gcn.FArr F Cert.KernelIdeal.S128) (w2 : Cert.Gcn.FArr F Cert.KernelIdeal.S128x64) (b2 : Cert.Gcn.FArr F Cert.KernelIdeal.S64)
    (wfc : Cert.Gcn.FArr F Cert.KernelIdeal.S128x86) (bfc : Cert.Gcn.FArr F Cert.KernelIdeal.S86) : Cert.Gcn.FArr F Cert.KernelIdeal.S262144x86 :=
  Cert.Gcn.logisticRows (addf
    (joinedHead
      (Cert.Gcn.gcnLayer64
        (Cert.Gcn.times64
          (Cert.Gcn.gcnLayer128 (times128 x w1) b1 (Cert.Gcn.withLoops (Cert.Gcn.edgeRow0 ei)) (Cert.Gcn.withLoops (Cert.Gcn.edgeRow1 ei))
            (Cert.Gcn.edgeCoef (Cert.Gcn.withLoops (Cert.Gcn.edgeRow0 ei)) (Cert.Gcn.withLoops (Cert.Gcn.edgeRow1 ei))))
          w2)
        b2 (Cert.Gcn.withLoops (Cert.Gcn.edgeRow0 ei)) (Cert.Gcn.withLoops (Cert.Gcn.edgeRow1 ei))
        (Cert.Gcn.edgeCoef (Cert.Gcn.withLoops (Cert.Gcn.edgeRow0 ei)) (Cert.Gcn.withLoops (Cert.Gcn.edgeRow1 ei))))
      wfc (Cert.Gcn.wrapPair d1) (Cert.Gcn.wrapPair d2))
    (Cert.Gcn.biasRows bfc))

theorem after_all (W : Valuation τ sig (Elt F)) :
    (after ops W (Proc.devRef .tc main_v116) : Cert.Gcn.FArr F Cert.KernelIdeal.S262144x86)
      = result (W (Proc.devRef .tc main_arg0)) (W (Proc.devRef .tc main_arg1)) (W (Proc.devRef .tc main_arg2)) (W (Proc.devRef .tc main_arg3)) (W (Proc.devRef .tc main_arg4))
          (W (Proc.devRef .tc main_arg5)) (W (Proc.devRef .tc main_arg6)) (W (Proc.devRef .tc main_arg7)) (W (Proc.devRef .tc main_arg8)) (W (Proc.devRef .tc main_arg9)) := by
  show after (stage1 ++ (stage2 ++ stage3)) W _ = _
  rw [after_append, after_append, stage3_pairs, stage2_layer, stage1_layer, stage1_row0, stage1_row1]
  rw [through2 _ main_arg8 (by decide), through1 _ main_arg8 (by decide),
    through2 _ main_arg2 (by decide), through1 _ main_arg2 (by decide),
    through2 _ main_arg3 (by decide), through1 _ main_arg3 (by decide),
    through2 _ main_arg9 (by decide), through1 _ main_arg9 (by decide),
    through1 _ main_arg6 (by decide), through1 _ main_arg7 (by decide)]
  rfl

/-! ## The run -/

/-- Every execution of the reference from `m` terminates without a fault, with its result at `result` of the
    arguments and the ten arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v116).trans (after_all (launchContents m c)),
     (h c main_arg0).trans (through_all _ main_arg0 (by decide)),
     (h c main_arg1).trans (through_all _ main_arg1 (by decide)),
     (h c main_arg2).trans (through_all _ main_arg2 (by decide)),
     (h c main_arg3).trans (through_all _ main_arg3 (by decide)),
     (h c main_arg4).trans (through_all _ main_arg4 (by decide)),
     (h c main_arg5).trans (through_all _ main_arg5 (by decide)),
     (h c main_arg6).trans (through_all _ main_arg6 (by decide)),
     (h c main_arg7).trans (through_all _ main_arg7 (by decide)),
     (h c main_arg8).trans (through_all _ main_arg8 (by decide)),
     (h c main_arg9).trans (through_all _ main_arg9 (by decide))⟩)
    (run_seq scopedRefs_eq scopedSems_eq defs main (fun _ => ops) main_eq (fun _ => ops_sub) m ρ (fun _ => ops_fresh))

end Cert.ReferenceIdeal.Terms

end
-- ==== Proof.IdealHostTerms.lean ====
/-
  The kernel program's host lines as the graph convolution's pieces.

  The lines before the launch leave the two edge lists with their self-loops, the edges' coefficients and the narrowed
  first-layer weights. The lines after the launch, handed the launch's product, compute the first layer, its product with
  the second layer's weights, the second layer, and the pairs' stage. Each stretch is read on its own, as a function of
  whatever contents it is handed, and the stretches are then composed: a buffer a stretch does not write passes
  through it.
-/
import proofs.«157748_j10273561772323_2_alg».proof.Proof.IdealStripFrame
import proofs.«157748_j10273561772323_2_alg».proof.Proof.GcnTerms
import proofs.«157748_j10273561772323_2_alg».proof.Proof.LibHostStretches

set_option maxRecDepth 16384

noncomputable section

namespace Cert.KernelIdeal.Terms

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Sides Cert.KernelIdeal.Strips Cert.Gcn

variable {F : FTy → Type} [FloatOps F]

/-! ## The lines before the launch -/

/-- The sources with their self-loops. -/
theorem before_src (W : Valuation τ sig (Elt F)) :
    (after (List.flatten [hostOps0, hostOps0_1, hostOps0_2]) W (Proc.devRef .tc main_v5) : IArr F S532480)
      = withLoops (edgeRow0 (W (Proc.devRef .tc main_arg1))) := by
  simp only [hostOps0, hostOps0_1, hostOps0_2, List.flatten_cons, List.flatten_nil, List.append_nil, List.cons_append, List.nil_append]
  after_results_simp
  rfl

/-- The destinations with their self-loops. -/
theorem before_dst (W : Valuation τ sig (Elt F)) :
    (after (List.flatten [hostOps0, hostOps0_1, hostOps0_2]) W (Proc.devRef .tc main_v6) : IArr F S532480)
      = withLoops (edgeRow1 (W (Proc.devRef .tc main_arg1))) := by
  simp only [hostOps0, hostOps0_1, hostOps0_2, List.flatten_cons, List.flatten_nil, List.append_nil, List.cons_append, List.nil_append]
  after_results_simp
  rfl

/-- The edges' coefficients. -/
theorem before_coef (W : Valuation τ sig (Elt F)) :
    (after (List.flatten [hostOps0, hostOps0_1, hostOps0_2]) W (Proc.devRef .tc main_v29) : FArr F S532480)
      = edgeCoef (withLoops (edgeRow0 (W (Proc.devRef .tc main_arg1)))) (withLoops (edgeRow1 (W (Proc.devRef .tc main_arg1)))) := by
  simp only [hostOps0, hostOps0_1, hostOps0_2, List.flatten_cons, List.flatten_nil, List.append_nil, List.cons_append, List.nil_append]
  after_results_simp
  rfl

/-- The first layer's weights, narrowed. -/
theorem before_weights (W : Valuation τ sig (Elt F)) :
    (after (List.flatten [hostOps0, hostOps0_1, hostOps0_2]) W (Proc.devRef .tc main_v30) : FVec F S8192x128 .bf16)
      = truncf .bf16 (W (Proc.devRef .tc main_arg4) : FVec F S8192x128 .f32) bitsLt_bf16_f32 := by
  simp only [hostOps0, hostOps0_1, hostOps0_2, List.flatten_cons, List.flatten_nil, List.append_nil, List.cons_append, List.nil_append]
  after_results_simp

/-! ## The lines after the launch, a stretch at a time -/

/-- The first layer, from the launch's product. -/
theorem after_layer1 (W : Valuation τ sig (Elt F)) :
    (after (List.flatten [hostOps1, hostOps1_1]) W (Proc.devRef .tc main_v48) : FArr F S8192x128)
      = gcnLayer128 (W (Proc.devRef .tc main_v31)) (W (Proc.devRef .tc main_arg5)) (W (Proc.devRef .tc main_v5)) (W (Proc.devRef .tc main_v6)) (W (Proc.devRef .tc main_v29)) := by
  simp only [hostOps1, hostOps1_1, List.flatten_cons, List.flatten_nil, List.append_nil, List.cons_append, List.nil_append]
  after_results_simp
  rfl

/-- The second layer, from the first. -/
theorem after_layer2 (W : Valuation τ sig (Elt F)) :
    (after (List.flatten [hostOps1_2, hostOps1_3]) W (Proc.devRef .tc main_v66) : FArr F S8192x64)
      = gcnLayer64 (times64 (W (Proc.devRef .tc main_v48)) (W (Proc.devRef .tc main_arg6))) (W (Proc.devRef .tc main_arg7)) (W (Proc.devRef .tc main_v5)) (W (Proc.devRef .tc main_v6)) (W (Proc.devRef .tc main_v29)) := by
  simp only [hostOps1_2, hostOps1_3, List.flatten_cons, List.flatten_nil, List.append_nil, List.cons_append, List.nil_append]
  after_results_simp
  rfl

/-- The pairs' stage, from the second layer. -/
theorem after_pairs (W : Valuation τ sig (Elt F)) :
    (after hostOps1_4 W (Proc.devRef .tc main_v94) : FArr F S262144x86)
      = logisticRows (addf (splitHead (W (Proc.devRef .tc main_v66)) (W (Proc.devRef .tc main_arg8)) (wrapPair (W (Proc.devRef .tc main_arg2))) (wrapPair (W (Proc.devRef .tc main_arg3))))
          (biasRows (W (Proc.devRef .tc main_arg9)))) := by
  simp only [hostOps1_4]
  after_results_simp
  rfl

/-! ## Buffers that pass through -/

theorem stretch1_writes : (List.flatten [hostOps1, hostOps1_1] : List (HloOp τ sig (Elt F))).Forall
    fun op => op.writes ⊆ (writtenAfter.map (Proc.devRef (τ := τ) .tc)).toFinset :=
  forall_flatten fun ops hops => by
    simp only [List.mem_cons, List.mem_nil_iff, or_false] at hops
    rcases hops with rfl | rfl
    exacts [List.forall_iff_forall_mem.mp hostOps1_writes, List.forall_iff_forall_mem.mp hostOps1_1_writes]

theorem stretch2_writes : (List.flatten [hostOps1_2, hostOps1_3] : List (HloOp τ sig (Elt F))).Forall
    fun op => op.writes ⊆ (writtenAfter.map (Proc.devRef (τ := τ) .tc)).toFinset :=
  forall_flatten fun ops hops => by
    simp only [List.mem_cons, List.mem_nil_iff, or_false] at hops
    rcases hops with rfl | rfl
    exacts [List.forall_iff_forall_mem.mp hostOps1_2_writes, List.forall_iff_forall_mem.mp hostOps1_3_writes]

/-- A buffer that is no result of a line after the launch passes through the first stretch, -/
theorem through1 (W : Valuation τ sig (Elt F)) (r : Ref sig .tc) (hr : r ∉ writtenAfter) :
    after (List.flatten [hostOps1, hostOps1_1]) W (Proc.devRef .tc r) = W (Proc.devRef .tc r) :=
  after_of_writes_sub _ _ stretch1_writes hr
/-- and through the second. -/
theorem through2 (W : Valuation τ sig (Elt F)) (r : Ref sig .tc) (hr : r ∉ writtenAfter) :
    after (List.flatten [hostOps1_2, hostOps1_3]) W (Proc.devRef .tc r) = W (Proc.devRef .tc r) :=
  after_of_writes_sub _ _ stretch2_writes hr

/-- The five stretches are the first two, then the next two, then the last. -/
theorem tail_split : (List.flatten [hostOps1, hostOps1_1, hostOps1_2, hostOps1_3, hostOps1_4] : List (HloOp τ sig (Elt F)))
    = List.flatten [hostOps1, hostOps1_1] ++ (List.flatten [hostOps1_2, hostOps1_3] ++ hostOps1_4) := by
  simp only [List.flatten_cons, List.flatten_nil, List.append_nil, List.append_assoc]

/-! ## All the lines after the launch -/

/-- The program's result from whatever the lines after the launch are handed: the launch's product, the edge lists, the
    coefficients, and the arguments. -/
theorem after_all (W : Valuation τ sig (Elt F)) :
    (after (List.flatten [hostOps1, hostOps1_1, hostOps1_2, hostOps1_3, hostOps1_4]) W (Proc.devRef .tc main_v94) : FArr F S262144x86)
      = logisticRows (addf
          (splitHead
            (gcnLayer64
              (times64 (gcnLayer128 (W (Proc.devRef .tc main_v31)) (W (Proc.devRef .tc main_arg5)) (W (Proc.devRef .tc main_v5)) (W (Proc.devRef .tc main_v6)) (W (Proc.devRef .tc main_v29)))
                (W (Proc.devRef .tc main_arg6)))
              (W (Proc.devRef .tc main_arg7)) (W (Proc.devRef .tc main_v5)) (W (Proc.devRef .tc main_v6)) (W (Proc.devRef .tc main_v29)))
            (W (Proc.devRef .tc main_arg8)) (wrapPair (W (Proc.devRef .tc main_arg2))) (wrapPair (W (Proc.devRef .tc main_arg3))))
          (biasRows (W (Proc.devRef .tc main_arg9)))) := by
  rw [tail_split, after_append, after_append, after_pairs, after_layer2, after_layer1]
  rw [through2 _ main_arg8 (by decide), through1 _ main_arg8 (by decide),
    through2 _ main_arg2 (by decide), through1 _ main_arg2 (by decide),
    through2 _ main_arg3 (by decide), through1 _ main_arg3 (by decide),
    through2 _ main_arg9 (by decide), through1 _ main_arg9 (by decide),
    through1 _ main_arg6 (by decide), through1 _ main_arg7 (by decide),
    through1 _ main_v5 (by decide), through1 _ main_v6 (by decide), through1 _ main_v29 (by decide)]

end Cert.KernelIdeal.Terms

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.IdealProduct.lean ====
/-
  The product the launch leaves, over the extended reals.

  With floats read as extended reals and every change of float format the identity, the launch's result array is the
  whole product X · W of the 8192 x 8192 matrix the launch finds with the 8192 x 128 weights it finds: entry (r, q) is
  the sum over k of X (r, k) · W (k, q). Strip `t` holds rows 256 t … 256 t + 255 of X, the weights' block is all of
  W, and the (p, q) entry the body stores is the sum over k of X (256 t + p, k) · W (k, q) — the (256 t + p, q) entry
  of the whole product, the same terms in the same order. Strip `t` is written back as rows 256 t … 256 t + 255 of
  the result, and row r lies in strip r / 256, so the 32 strips cover the result.
-/
import proofs.«157748_j10273561772323_2_alg».proof.Proof.IdealStripFrame
import proofs.«157748_j10273561772323_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Product

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Sides Cert.KernelIdeal.Strips

variable (m : (ℓ : Loc nD τ sig) → Buf (Elt Ideal) ℓ)

theorem offsets_zero : (![0, 0] : Fin 2 → Nat) = fun _ => 0 := funext fun a => by fin_cases a <;> rfl

/-- The whole product of an 8192 x 8192 matrix with an 8192 x 128 one, as the host computes it. -/
def product (X : S8192x8192.Idx → EReal) (Wt : S8192x128.Idx → EReal) : S8192x128.Idx → EReal :=
  FloatOps.dotGeneral (F := Ideal) (DotDims.plain 8192 8192 128) none .single (φ₁ := .f32) (φ₂ := .f32) X Wt

/-- One entry of a strip's block product is the entry of the whole product in the strip's row: if the block `xb` holds
    the 256 rows of `X` from row `o` on and `wb` is all of `Wt`, then entry `j` of what the body stores is entry `i`
    of the whole product, `i` being `j` moved down `o` rows. -/
theorem strip_at (X : S8192x8192.Idx → EReal) (Wt : S8192x128.Idx → EReal) (xb : S256x8192.Idx → EReal) (wb : S8192x128.Idx → EReal)
    (o : Nat) (ho : o + 256 ≤ 8192)
    (hx : ∀ (p : Fin 256) (k : Fin 8192), xb (ix2 p k) = X (ix2 ⟨o + p.val, by have := p.isLt; omega⟩ k))
    (hw : ∀ (k : Fin 8192) (q : Fin 128), wb (ix2 k q) = Wt (ix2 k q))
    (j : S256x128.Idx) (i : S8192x128.Idx) (hi0 : (i 0).val = o + (j 0).val) (hi1 : (i 1).val = (j 1).val) :
    k0_pay1 (F := Ideal) xb wb j = product X Wt i := by
  obtain ⟨p, q, rfl⟩ : ∃ (p : Fin 256) (q : Fin 128), j = ix2 p q := ⟨j 0, j 1, eq_ix2 j⟩
  have hi : i = ix2 ⟨o + p.val, by have := p.isLt; omega⟩ q := by
    funext a; apply Fin.ext
    match a with
    | ⟨0, _⟩ => exact hi0
    | ⟨1, _⟩ => exact hi1
  rw [hi]
  unfold k0_pay1 product
  refine (PlainDot.matmul_zero_apply (M := 256) (K := 8192) (N := 128) none _ _ p q).trans ?_
  refine Eq.trans ?_ (PlainDot.dotGeneral_apply (M := 8192) (K := 8192) (N := 128) none .single X Wt ⟨o + p.val, by have := p.isLt; omega⟩ q).symm
  refine Finset.sum_congr rfl fun k _ => ?_
  rw [shapeCast_self]
  show xb (ix2 p k) * wb (ix2 k q) = _
  rw [hx p k, hw k q]

/-- The three windows' block indices at strip `t`: the matrix and the result move down with `t`, the weights stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem strip_lt (t : Fin cfg0.N) : t.val < 32 := lt_of_lt_of_eq t.isLt N_0

/-- What strip `t` writes back is block `t` of the whole product of the arrays the launch finds. -/
theorem flushed_eq (c : Dev nD) (t : Fin cfg0.N) :
    (dats m 0 c).flushed 2 t = ((cfg0.win 2).blk t).view.read (Elt Ideal) (product (V m c main_arg0) (V m c main_v30)) := by
  show (cfg0.win 2).cut (grid0.coords t) ((dats m 0 c).after 2 t) = _
  rw [after_o]
  unfold strip
  rw [View.canon_unit_zero offsets_zero]
  simp only [View.ld_unit_zero (S := S256x8192) offsets_zero, View.ld_unit_zero (S := S8192x128) offsets_zero]
  obtain ⟨e00, e01, e10, e11, e20, e21⟩ := idx_facts t
  have ht := strip_lt t
  funext j
  show k0_pay1 (F := Ideal) (iblk m c 0 t) (iblk m c 1 t) j = product (V m c main_arg0) (V m c main_v30) (((cfg0.win 2).blk t).view.emb j)
  refine strip_at (V m c main_arg0) (V m c main_v30) (iblk m c 0 t) (iblk m c 1 t) (256 * t.val) (by omega) ?_ ?_ j _ ?_ ?_
  · intro p k
    show V m c main_arg0 (((cfg0.win 0).blk t).view.emb (ix2 p k)) = V m c main_arg0 (ix2 ⟨256 * t.val + p.val, _⟩ k)
    refine congrArg _ (funext fun a => Fin.ext ?_)
    match a with
    | ⟨0, _⟩ => show win0_0.index t (0 : Fin 2) * 256 + 1 * p.val = 256 * t.val + p.val; omega
    | ⟨1, _⟩ => show win0_0.index t (1 : Fin 2) * 8192 + 1 * k.val = k.val; omega
  · intro k q
    show V m c main_v30 (((cfg0.win 1).blk t).view.emb (ix2 k q)) = V m c main_v30 (ix2 k q)
    refine congrArg _ (funext fun a => Fin.ext ?_)
    match a with
    | ⟨0, _⟩ => show win0_1.index t (0 : Fin 2) * 8192 + 1 * k.val = k.val; omega
    | ⟨1, _⟩ => show win0_1.index t (1 : Fin 2) * 128 + 1 * q.val = q.val; omega
  · show win0_2.index t (0 : Fin 2) * 256 + 1 * (j 0).val = 256 * t.val + (j 0).val; omega
  · show win0_2.index t (1 : Fin 2) * 128 + 1 * (j 1).val = (j 1).val; omega

/-- An index of the result is in strip `t`'s block iff its row is one of the strip's 256 rows. -/
theorem mem_blk (t : Fin cfg0.N) (i : S8192x128.Idx) :
    i ∈ ((cfg0.win 2).blk t).view.set ↔ ∀ a : Fin 2, win0_2.index t a * S256x128.size a ≤ (i a).val ∧ (i a).val < win0_2.index t a * S256x128.size a + S256x128.size a := by
  show i ∈ ((View.whole main_v31).slice (win0_2.rect t)).set ↔ _
  rw [View.set_slice_whole, Rect.mem_set_unit]
  exact Iff.rfl

/-- Row r of the result lies in strip r / 256: the strips cover the result. -/
theorem cover (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  have hN : (i 0).val / 256 < cfg0.N := by rw [show cfg0.N = 32 from N_0]; omega
  refine ⟨⟨(i 0).val / 256, hN⟩, flush0_2 _, ?_⟩
  rw [mem_blk]
  obtain ⟨-, -, -, -, e20, e21⟩ := idx_facts ⟨(i 0).val / 256, hN⟩
  intro a
  match a with
  | ⟨0, _⟩ =>
    show win0_2.index ⟨(i 0).val / 256, hN⟩ (0 : Fin 2) * 256 ≤ (i 0).val ∧ (i 0).val < win0_2.index ⟨(i 0).val / 256, hN⟩ (0 : Fin 2) * 256 + 256
    rw [e20]; show (i 0).val / 256 * 256 ≤ (i 0).val ∧ (i 0).val < (i 0).val / 256 * 256 + 256; omega
  | ⟨1, _⟩ =>
    show win0_2.index ⟨(i 0).val / 256, hN⟩ (1 : Fin 2) * 128 ≤ (i 1).val ∧ (i 1).val < win0_2.index ⟨(i 0).val / 256, hN⟩ (1 : Fin 2) * 128 + 128
    rw [e21]; omega

/-- After the run the launch's result array is the whole product of the matrix and the weights the launch found. -/
theorem final (c : Dev nD) : (dats m 0 c).arrAt 2 cfg0.N = product (V m c main_arg0) (V m c main_v30) :=
  (dats m 0 c).arrAt_eq_of_cover 2 (product (V m c main_arg0) (V m c main_v30)) (fun t _ => flushed_eq m c t) cover

end Cert.KernelIdeal.Product

end
-- ==== Proof.TailSplit.lean ====
/-
  The last linear layer, read entry by entry over the extended reals.

  One program multiplies the 8192 rows of `h` by the upper and by the lower 64 rows of the 128×86 weight
  matrix `W`, gathers one row of each product per pair, and adds the two. The other gathers the two rows of
  `h` first, lays them side by side as one row of 128 entries, and multiplies that by the whole of `W`. Entry
  `(p, j)` of either is

      ∑ k < 64, h (r₁ p, k) · W (k, j) + ∑ k < 64, h (r₂ p, k) · W (64 + k, j),

  where `r₁ p`, `r₂ p` are the rows the two start indices of pair `p` name (read signed and clamped into
  `[0, 8191]`, the same for a gather of 64-entry rows and a gather of 86-entry rows). The only algebra is cutting a
  sum over 128 indices into the sums over the first and the last 64, which holds in any commutative additive
  monoid: no distributivity and no cancellation, so infinities do no harm.
-/
import proofs.«157748_j10273561772323_2_alg».proof.Proof.Gen.KernelIdeal
import proofs.«157748_j10273561772323_2_alg».proof.Proof.Gen.ReferenceIdeal
import proofs.«157748_j10273561772323_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.TailSplit

open Idealize.ShloMosaic Idealize.ShloMosaic.ValueIdx

/-! ## A gather of whole rows, read at an index -/

section RowGather
variable {α : Type}

/-- The dimension numbers of a gather of whole rows: an operand `[N, C]`, one start index per result row held as
    `[R, 1]`, a result `[R, C]`; the row axis is collapsed and is the one the start index names, the slice is one
    row of `C` entries. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row result row `p` reads: its start index read as a signed integer and clamped into `[0, N − 1]`. It does
    not depend on the length of the rows. -/
def row (N : Nat) {R w : Nat} (hN : 0 < N) (idx : IVec ⟨2, ![R, 1]⟩ w) (p : Fin R) : Fin N :=
  ⟨min (idx (ix2 p (0 : Fin 1))).toInt.toNat (N - 1), by omega⟩

/-- A gather of whole rows at `(p, j)` is the operand at `(row p, j)`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (j : Fin C) :
    Host.gather (rowDims N R C wf) x idx (ix2 p j) = x (ix2 (row N hN idx p) j) := by
  unfold Host.gather
  refine congrArg x (funext fun a => Fin.ext ?_)
  match a with
  | ⟨0, _⟩ =>
    show (rowDims N R C wf).start (ix2 p j) idx 0 + (rowDims N R C wf).batchCoord (ix2 p j) 0
        + (rowDims N R C wf).offCoord (ix2 p j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 p j) ⟨List.idxOf (0 : Fin 2) (rowDims N R C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N R C wf).start (ix2 p j) idx 1 + (rowDims N R C wf).batchCoord (ix2 p j) 1
        + (rowDims N R C wf).offCoord (ix2 p j) 1 = j.val
    rw [GatherDims.batchCoord_eq_zero _ _ _ List.not_mem_nil]
    have hs : (rowDims N R C wf).start (ix2 p j) idx 1 = 0 := by
      unfold GatherDims.start
      rw [dif_neg (show ¬(1 : Fin 2) ∈ (rowDims N R C wf).startIndexMap from
        fun h => absurd (show (1 : Fin 2) = 0 from List.mem_singleton.mp h) (by decide))]
    rw [hs]
    simp only [Nat.add_zero, Nat.zero_add]
    rfl

end RowGather

/-! ## Cutting a sum over 128 indices in two -/

/-- Index `k` of the first 64 among 128. -/
abbrev lo (k : Fin 64) : Fin 128 := ⟨k.val, by omega⟩
/-- Index `64 + k` of the last 64 among 128. -/
abbrev hi (k : Fin 64) : Fin 128 := ⟨64 + k.val, by omega⟩

/-- A sum over 128 indices is the sum over the first 64 plus the sum over the last 64. Only commutativity and
    associativity of the addition are used. -/
theorem sum_lo_hi {M : Type} [AddCommMonoid M] (f : Fin 128 → M) :
    ∑ k : Fin 128, f k = ∑ k : Fin 64, f (lo k) + ∑ k : Fin 64, f (hi k) :=
  Fin.sum_univ_add (a := 64) (b := 64) f

/-! ## The entries of the two arrangements -/

section Entries
variable {N R C w : Nat}

/-- Rows gathered out of a product: entry `(p, j)` is row `row p` of the left factor against column `j` of the
    right one. -/
theorem gather_dot_apply {K : Nat} (hN : 0 < N)
    (wf : GatherDims.WF ⟨2, ![N, C]⟩ ⟨2, ![R, 1]⟩ ⟨2, ![R, C]⟩ [1] [0] [] [0] [] 1 ![1, C])
    (x : FVec Ideal ⟨2, ![N, K]⟩ .f32) (V : FVec Ideal ⟨2, ![K, C]⟩ .f32) (idx : IVec ⟨2, ![R, 1]⟩ w)
    (p : Fin R) (j : Fin C) :
    Host.gather (rowDims N R C wf) (Host.dotGeneral (F := Ideal) (DotDims.plain N K C) none x V) idx (ix2 p j)
      = ∑ k : Fin K, x (ix2 (row N hN idx p) k) * V (ix2 k j) := by
  rw [gather_row_apply hN]
  exact Idealize.ShloMosaic.PlainDot.dotGeneral_apply none .single x V _ j

/-- The upper 64 rows of a 128-row matrix, at `(k, j)`. -/
theorem upper_apply (W : (⟨2, ![128, C]⟩ : Shape).Idx → EReal)
    (hs : (⟨2, ![128, C]⟩ : Shape).Slices ![0, 0] ⟨2, ![64, C]⟩) (k : Fin 64) (j : Fin C) :
    extractStridedSlice ⟨2, ![64, C]⟩ ![0, 0] W hs (ix2 k j) = W (ix2 (lo k) j) :=
  slice2_axis0_apply 0 W hs k j (lo k) (Nat.zero_add _).symm

/-- The lower 64 rows of a 128-row matrix, at `(k, j)`. -/
theorem lower_apply (W : (⟨2, ![128, C]⟩ : Shape).Idx → EReal)
    (hs : (⟨2, ![128, C]⟩ : Shape).Slices ![64, 0] ⟨2, ![64, C]⟩) (k : Fin 64) (j : Fin C) :
    extractStridedSlice ⟨2, ![64, C]⟩ ![64, 0] W hs (ix2 k j) = W (ix2 (hi k) j) :=
  slice2_axis0_apply 64 W hs k j (hi k) rfl

/-- Two blocks of 64 columns laid side by side: among the first 64 columns the first block. -/
theorem beside_lo {α : Type} (x₁ x₂ : (⟨2, ![R, 64]⟩ : Shape).Idx → α)
    (hc : Shape.Concatenates [⟨2, ![R, 64]⟩, ⟨2, ![R, 64]⟩] ⟨2, ![R, 128]⟩ 1) (p : Fin R) (k : Fin 64) :
    concatenate ⟨2, ![R, 128]⟩ 1 [⟨⟨2, ![R, 64]⟩, x₁⟩, ⟨⟨2, ![R, 64]⟩, x₂⟩] hc (ix2 p (lo k)) = x₁ (ix2 p k) :=
  concatenate_pair_apply_left 1 x₁ x₂ hc (ix2 p (lo k)) rfl (ix2 p k) (fun b => by
    match b with
    | ⟨0, _⟩ => rfl
    | ⟨1, _⟩ => rfl)

/-- Two blocks of 64 columns laid side by side: among the last 64 columns the second block. -/
theorem beside_hi {α : Type} (x₁ x₂ : (⟨2, ![R, 64]⟩ : Shape).Idx → α)
    (hc : Shape.Concatenates [⟨2, ![R, 64]⟩, ⟨2, ![R, 64]⟩] ⟨2, ![R, 128]⟩ 1) (p : Fin R) (k : Fin 64) :
    concatenate ⟨2, ![R, 128]⟩ 1 [⟨⟨2, ![R, 64]⟩, x₁⟩, ⟨⟨2, ![R, 64]⟩, x₂⟩] hc (ix2 p (hi k)) = x₂ (ix2 p k) :=
  concatenate_pair_apply_right 1 x₁ x₂ hc (ix2 p (hi k)) rfl rfl (ix2 p k)
    (fun b hb => by
      match b with
      | ⟨0, _⟩ => rfl
      | ⟨1, _⟩ => exact absurd rfl hb)
    (by show k.val + 64 = 64 + k.val; omega)

/-- Two gathered blocks side by side against the whole 128-row matrix: entry `(p, j)` is the first block's row
    against the upper 64 rows plus the second block's row against the lower 64. -/
theorem beside_dot_apply (x₁ x₂ : FVec Ideal ⟨2, ![R, 64]⟩ .f32) (W : FVec Ideal ⟨2, ![128, C]⟩ .f32)
    (hc : Shape.Concatenates [⟨2, ![R, 64]⟩, ⟨2, ![R, 64]⟩] ⟨2, ![R, 128]⟩ 1) (p : Fin R) (j : Fin C) :
    Host.dotGeneral (F := Ideal) (DotDims.plain R 128 C) none
        (concatenate ⟨2, ![R, 128]⟩ 1 [⟨⟨2, ![R, 64]⟩, x₁⟩, ⟨⟨2, ![R, 64]⟩, x₂⟩] hc) W (ix2 p j)
      = ∑ k : Fin 64, x₁ (ix2 p k) * W (ix2 (lo k) j) + ∑ k : Fin 64, x₂ (ix2 p k) * W (ix2 (hi k) j) := by
  refine (Idealize.ShloMosaic.PlainDot.dotGeneral_apply none .single _ W p j).trans ?_
  rw [sum_lo_hi]
  simp only [beside_lo, beside_hi]

end Entries

/-! ## The two programs' last layer before the bias -/

section Programs

/-- The first program's product `[8192, 64] × [64, 86]` contracts the left factor's columns with the right factor's
    rows: a plain matrix product. -/
theorem kernel_dot_eq [Cert.KernelIdeal.Facts₀] :
    Cert.KernelIdeal.dot_S8192x64_S64x86_S8192x86_1_0_0_1_n_n = DotDims.plain 8192 64 86 := rfl

/-- The first program's gather takes whole rows of 86 entries out of 8192, one per pair. -/
theorem kernel_gather_eq [Cert.KernelIdeal.Facts₀] :
    Cert.KernelIdeal.gather_S8192x86_S262144x1_S262144x86_1_0_n_n_0_1_186
      = rowDims 8192 262144 86 Cert.KernelIdeal.Facts₀.gather_S8192x86_S262144x1_S262144x86_1_0_n_n_0_1_186_wf := rfl

/-- The second program's product `[262144, 128] × [128, 86]` is a plain matrix product. -/
theorem reference_dot_eq [Cert.ReferenceIdeal.Facts₀] :
    Cert.ReferenceIdeal.dot_S262144x128_S128x86_S262144x86_1_0_0_1_n_n = DotDims.plain 262144 128 86 := rfl

/-- The second program's gather takes whole rows of 64 entries out of 8192, one per pair. -/
theorem reference_gather_eq [Cert.ReferenceIdeal.Facts₀] :
    Cert.ReferenceIdeal.gather_S8192x64_S262144x1_S262144x64_1_0_n_n_0_1_164
      = rowDims 8192 262144 64 Cert.ReferenceIdeal.Facts₀.gather_S8192x64_S262144x1_S262144x64_1_0_n_n_0_1_164_wf := rfl

/-- THE LAST LAYER BEFORE THE BIAS. Gathering one row per pair out of `h · W[0:64]` and one out of `h · W[64:128]`
    and adding them gives the array that gathering the two rows of `h`, laying them side by side and multiplying
    by the whole of `W` gives: at `(p, j)` both are
    `∑ k < 64, h (r₁ p, k) · W (k, j) + ∑ k < 64, h (r₂ p, k) · W (64 + k, j)`. -/
theorem tail_split [Cert.KernelIdeal.Facts₀] [Cert.ReferenceIdeal.Facts₀]
    (h : (⟨Cert.KernelIdeal.S8192x64, .f32⟩ : BufTy).Contents (Elt Ideal))
    (W : (⟨Cert.KernelIdeal.S128x86, .f32⟩ : BufTy).Contents (Elt Ideal))
    (i1 i2 : (⟨Cert.KernelIdeal.S262144x1, .i32⟩ : BufTy).Contents (Elt Ideal)) :
    addf (F := Ideal)
        (Host.gather Cert.KernelIdeal.gather_S8192x86_S262144x1_S262144x86_1_0_n_n_0_1_186
          (Host.dotGeneral (F := Ideal) (φ₁ := .f32) (φ₂ := .f32) Cert.KernelIdeal.dot_S8192x64_S64x86_S8192x86_1_0_0_1_n_n none h
            (extractStridedSlice Cert.KernelIdeal.S64x86 ![0, 0] W
              Cert.KernelIdeal.Facts₀.slices_S128x86_S64x86_0_0)) i1)
        (Host.gather Cert.KernelIdeal.gather_S8192x86_S262144x1_S262144x86_1_0_n_n_0_1_186
          (Host.dotGeneral (F := Ideal) (φ₁ := .f32) (φ₂ := .f32) Cert.KernelIdeal.dot_S8192x64_S64x86_S8192x86_1_0_0_1_n_n none h
            (extractStridedSlice Cert.KernelIdeal.S64x86 ![64, 0] W
              Cert.KernelIdeal.Facts₀.slices_S128x86_S64x86_64_0)) i2)
      = Host.dotGeneral (F := Ideal) (φ₁ := .f32) (φ₂ := .f32) Cert.ReferenceIdeal.dot_S262144x128_S128x86_S262144x86_1_0_0_1_n_n none
          (concatenate Cert.ReferenceIdeal.S262144x128 1
            [⟨Cert.ReferenceIdeal.S262144x64,
                Host.gather Cert.ReferenceIdeal.gather_S8192x64_S262144x1_S262144x64_1_0_n_n_0_1_164 h i1⟩,
              ⟨Cert.ReferenceIdeal.S262144x64,
                Host.gather Cert.ReferenceIdeal.gather_S8192x64_S262144x1_S262144x64_1_0_n_n_0_1_164 h i2⟩]
            Cert.ReferenceIdeal.Facts₀.concatenates_S262144x64_S262144x64_S262144x128_d1) W := by
  funext i
  obtain ⟨p, j, rfl⟩ : ∃ (p : Fin 262144) (j : Fin 86), i = ix2 p j := ⟨i 0, i 1, eq_ix2 i⟩
  rw [addf_apply, kernel_dot_eq, kernel_gather_eq, reference_dot_eq, reference_gather_eq]
  rw [gather_dot_apply (by decide : 0 < 8192), gather_dot_apply (by decide : 0 < 8192), beside_dot_apply]
  simp only [upper_apply, lower_apply, gather_row_apply (by decide : 0 < 8192)]

end Programs

end Cert.TailSplit

end
-- ==== Proof.Join.lean ====
/-
  The two programs compute the same array, over the extended reals.

  Both programs build the same edge lists, degrees and coefficients from the edge list, and both apply the same two
  layers; they differ in two places. The first layer's input: the kernel program's launch leaves the product of the
  matrix with the narrowed weights — narrowing is the identity on extended reals, and the launch's strips make up the
  whole product — where the reference multiplies on the host: the same sums. The pairs' stage: the kernel program
  projects the node table by the upper and the lower half of the last matrix and adds the first node's row of the one
  to the second node's row of the other, where the reference puts the two nodes' rows side by side and multiplies by
  the whole matrix: entry (p, j) is, either way, the sum over the first 64 columns plus the sum over the last 64, the
  sum over 128 terms split in two. Neither step needs a finite entry.
-/
import proofs.«157748_j10273561772323_2_alg».proof.Proof.IdealHostTerms
import proofs.«157748_j10273561772323_2_alg».proof.Proof.IdealProduct
import proofs.«157748_j10273561772323_2_alg».proof.Proof.RefHostTerms
import proofs.«157748_j10273561772323_2_alg».proof.Proof.TailSplit

set_option maxRecDepth 16384

noncomputable section

namespace Cert.Join

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Sides Cert.KernelIdeal.Strips Cert.Gcn

variable (m : (ℓ : Loc nD τ sig) → Buf (Elt Ideal) ℓ)

/-- The kernel program's result array is the reference's function of the same ten arguments. -/
theorem kernel_eq_reference (c : Dev nD) :
    (Pipeline.afterTail₀ cfgs (dats m) 0 (V0 m) tailLines c main_v94 : FArr Ideal S262144x86)
      = Cert.ReferenceIdeal.Terms.result (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) := by
  -- what the lines after the launch are handed
  obtain ⟨X, hX⟩ : ∃ X : Valuation τ sig (Elt Ideal),
      X = Pipeline.withArrays (cfgs 0).spec c (V0 m c) (fun w => (dats m 0 c).arrAt w (cfgs 0).N) := ⟨_, rfl⟩
  have e : (Pipeline.afterTail₀ cfgs (dats m) 0 (V0 m) tailLines c main_v94 : FArr Ideal S262144x86)
      = after (List.flatten [hostOps1, hostOps1_1, hostOps1_2, hostOps1_3, hostOps1_4]) X (Proc.devRef .tc main_v94) := by
    rw [hX]; rfl
  have h31 : X (Proc.devRef .tc main_v31) = (dats m 0 c).arrAt 2 cfg0.N := by
    rw [hX]; exact Pipeline.withArrays_arr spec0 launch0.win.arr_inj c _ _ 2
  have hne : ∀ r : Ref sig .tc, (∀ w, Pipeline.arrRef spec0 w ≠ r) → X (Proc.devRef .tc r) = V m c r := fun r h => by
    rw [hX]; exact Pipeline.withArrays_of_ne _ c (V0 m c) _ r h
  -- the edge lists, the coefficients and the weights as the lines before the launch leave them
  have e5 : (V m c main_v5 : IArr Ideal S532480) = withLoops (edgeRow0 (m ((c : Thread nD τ).loc main_arg1))) :=
    Cert.KernelIdeal.Terms.before_src (F := Ideal) (fun b => m (c, b))
  have e6 : (V m c main_v6 : IArr Ideal S532480) = withLoops (edgeRow1 (m ((c : Thread nD τ).loc main_arg1))) :=
    Cert.KernelIdeal.Terms.before_dst (F := Ideal) (fun b => m (c, b))
  have e29 : (V m c main_v29 : FArr Ideal S532480)
      = edgeCoef (withLoops (edgeRow0 (m ((c : Thread nD τ).loc main_arg1)))) (withLoops (edgeRow1 (m ((c : Thread nD τ).loc main_arg1)))) :=
    Cert.KernelIdeal.Terms.before_coef (F := Ideal) (fun b => m (c, b))
  have e30 : (V m c main_v30 : S8192x128.Idx → EReal) = (m ((c : Thread nD τ).loc main_arg4)) :=
    Cert.KernelIdeal.Terms.before_weights (F := Ideal) (fun b => m (c, b))
  rw [e, Cert.KernelIdeal.Terms.after_all, h31, Cert.KernelIdeal.Product.final,
    hne main_arg5 (by decide), hne main_arg6 (by decide), hne main_arg7 (by decide), hne main_arg8 (by decide),
    hne main_arg2 (by decide), hne main_arg3 (by decide), hne main_arg9 (by decide),
    hne main_v5 (by decide), hne main_v6 (by decide), hne main_v29 (by decide),
    e5, e6, e29, e30,
    entry_kept m c main_arg0 (by decide), entry_kept m c main_arg5 (by decide), entry_kept m c main_arg6 (by decide),
    entry_kept m c main_arg7 (by decide), entry_kept m c main_arg8 (by decide), entry_kept m c main_arg2 (by decide),
    entry_kept m c main_arg3 (by decide), entry_kept m c main_arg9 (by decide)]
  unfold Cert.ReferenceIdeal.Terms.result splitHead Cert.ReferenceIdeal.Terms.joinedHead
  rw [Cert.TailSplit.tail_split]
  rfl

end Cert.Join

end
-- ==== Proof.lean ====
/-
  The certificate of a two-layer graph convolution with a pairwise readout, against its reference.

  The kernel program computes x · W1 in one kernel launch over 32 strips of rows, and everything else on the host:
  the graph's normalised aggregation twice (with a bias and a clamp at zero each time), the second layer's weights in
  between, and a readout that, for every pair of nodes, adds a row of one projection of the node table to a row of
  another and applies the logistic. The reference does all of it on the host, and reads out by putting the two nodes'
  rows side by side before one product. Over the extended reals the two results are the same array, entry by entry,
  with no condition on the inputs: the launch's strips are the rows of the whole product, and a sum over 128 terms is
  the sum of its two halves.
  The frames (both readings of the kernel program, and the reference): every execution terminates without a fault and
  the ten arguments end as they started. Nothing was rewritten in the idealization, so there is nothing to preserve.
-/
import proofs.«157748_j10273561772323_2_alg».proof.Defs
import proofs.«157748_j10273561772323_2_alg».proof.Proof.Gen.Kernel
import proofs.«157748_j10273561772323_2_alg».proof.Proof.Gen.KernelIdeal
import proofs.«157748_j10273561772323_2_alg».proof.Proof.Gen.ReferenceIdeal
import proofs.«157748_j10273561772323_2_alg».proof.Proof.Gen.Pre_finite_inputs
import proofs.«157748_j10273561772323_2_alg».proof.Proof.BitsStripFrame
import proofs.«157748_j10273561772323_2_alg».proof.Proof.IdealStripFrame
import proofs.«157748_j10273561772323_2_alg».proof.Proof.RefHostTerms
import proofs.«157748_j10273561772323_2_alg».proof.Proof.Join
import Idealize.ShloMosaic.Adequacy
import Idealize.ShloMosaic.Init

noncomputable section

namespace Cert.Proof

open Idealize.ShloMosaic Idealize.SL.Sem

/-- The kernel program as printed runs to its end and keeps its arguments. -/
theorem frame_kernel : @Cert.frame_Kernel Cert.Kernel.Gen.facts Cert.Pre_finite_inputs.Gen.facts :=
  fun m ρ _ => Cert.Kernel.Strips.frame m ρ

/-- So does its reading over the extended reals. -/
theorem frame_kernel_ideal : @Cert.frame_KernelIdeal Cert.KernelIdeal.Gen.facts Cert.Pre_finite_inputs.Gen.facts :=
  fun m ρ _ => Cert.KernelIdeal.Strips.frame m ρ

/-- And the reference. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Terms.run (F := Ideal) m ρ)

/-- From memories that agree on the ten arguments, both programs end with the same result array. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Idealize.ShloMosaic.Pipeline.afterTail₀ Cert.KernelIdeal.cfgs (Cert.KernelIdeal.Strips.dats m) 0
    (Cert.KernelIdeal.Sides.V0 m) Cert.KernelIdeal.Strips.tailLines c Cert.KernelIdeal.main_v94,
    Cert.KernelIdeal.Strips.run_named (F := Ideal) m ρ, ?_⟩
  refine (θ_run Cert.ReferenceIdeal.defs _ _).mono (fun _ h c => ⟨(h c).1.trans ?_, (h c).2⟩)
    (Cert.ReferenceIdeal.Terms.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.Join.kernel_eq_reference m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
